-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x16000000 : Shape := ⟨2, ![2, 16000000]⟩
abbrev S16000000 : Shape := ⟨1, ![16000000]⟩
abbrev S64x1 : Shape := ⟨2, ![64, 1]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S16000000 : S_.BroadcastsInDim S16000000 (![] : Fin 0 → Fin S16000000.rank)
  reducesTo_S16000000_S_d0 : S16000000.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg6 : FVec F S500000 .f32) (main_arg7 : FVec F S64x1 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S500000 .f32 := Host.absf main_arg6
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  main_v28

def fn {F : FTy → Type} [FloatOps F] (main_arg0 : FVec F S500000 .f32) (main_arg1 : FVec F S500000 .f32) (main_arg2 : IVec S500000 32) (main_arg3 : IVec S2x16000000 32) (main_arg4 : FVec F S16000000 .f32) (main_arg5 : FVec F S500000 .f32) (main_arg6 : FVec F S500000 .f32) (main_arg7 : FVec F S64x1 .f32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S16000000 .f32 := Host.absf main_arg4
  let main_cst_2 : FVec F S_ .f32 := constant S_ .f32 0x7F800000#32
  let main_v10 : FVec F S16000000 .f32 := broadcastInDim S16000000 ![] bcast_S_S16000000 main_cst_2
  let main_v11 : IVec S16000000 1 := cmpf .olt main_v9 main_v10
  let main_c_3 : IVec S_ 1 := constantI S_ 1 1#1
  let main_v12 : IVec S_ 1 := (fun x v => Host.reduce IntOp.andi x v reducesTo_S16000000_S_d0 h_S_) main_v11 main_c_3
  let main_v13 : IVec S_ 1 := andi main_v8 main_v12
  let main_v14 : FVec F S500000 .f32 := Host.absf main_arg5
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg6 main_arg7 main_v13 main_v16
-- ==== Kernel.lean ====
abbrev S500000 : Shape := ⟨1, ![500000]⟩
abbrev S2x16000000 : Shape := ⟨2, ![2, 16000000]⟩
abbrev S16000000 : Shape := ⟨1, ![16000000]⟩
abbrev S64x1 : Shape := ⟨2, ![64, 1]⟩
abbrev S64 : Shape := ⟨1, ![64]⟩
abbrev S_ : Shape := ⟨0, ![]⟩
abbrev S500000x1 : Shape := ⟨2, ![500000, 1]⟩
abbrev S24288 : Shape := ⟨1, ![24288]⟩
abbrev S524288 : Shape := ⟨1, ![524288]⟩
abbrev S4096x128 : Shape := ⟨2, ![4096, 128]⟩
abbrev S512x128 : Shape := ⟨2, ![512, 128]⟩
abbrev S1x16000000 : Shape := ⟨2, ![1, 16000000]⟩
abbrev S16000000x1 : Shape := ⟨2, ![16000000, 1]⟩

abbrev nBuf : Space → Nat
  | .hbm => 71
  | .vmem => 18
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .i32⟩
  | .hbm, ⟨3, _⟩ => ⟨S2x16000000, .i32⟩
  | .hbm, ⟨4, _⟩ => ⟨S16000000, .f32⟩
  | .hbm, ⟨5, _⟩ => ⟨S500000, .f32⟩
  | .hbm, ⟨6, _⟩ => ⟨S500000, .f32⟩
  | .hbm, ⟨7, _⟩ => ⟨S64x1, .f32⟩
  | .hbm, ⟨8, _⟩ => ⟨S64, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000, .f32⟩
  | .hbm, ⟨18, _⟩ => ⟨S_, .f32⟩
  | .hbm, ⟨19, _⟩ => ⟨S24288, .f32⟩
  | .hbm, ⟨20, _⟩ => ⟨S524288, .f32⟩
  | .hbm, ⟨21, _⟩ => ⟨S4096x128, .f32⟩
  | .hbm, ⟨22, _⟩ => ⟨S_, .f32⟩
  | .hbm, ⟨23, _⟩ => ⟨S24288, .f32⟩
  | .hbm, ⟨24, _⟩ => ⟨S524288, .f32⟩
  | .hbm, ⟨25, _⟩ => ⟨S4096x128, .f32⟩
  | .hbm, ⟨26, _⟩ => ⟨S4096x128, .f32⟩
  | .hbm, ⟨27, _⟩ => ⟨S524288, .f32⟩
  | .hbm, ⟨28, _⟩ => ⟨S500000, .f32⟩
  | .hbm, ⟨29, _⟩ => ⟨S1x16000000, .i32⟩
  | .hbm, ⟨30, _⟩ => ⟨S16000000, .i32⟩
  | .hbm, ⟨31, _⟩ => ⟨S1x16000000, .i32⟩
  | .hbm, ⟨32, _⟩ => ⟨S16000000, .i32⟩
  | .hbm, ⟨33, _⟩ => ⟨S_, .i32⟩
  | .hbm, ⟨34, _⟩ => ⟨S16000000, .i32⟩
  | .hbm, ⟨35, _⟩ => ⟨S16000000, .i1⟩
  | .hbm, ⟨36, _⟩ => ⟨S_, .i32⟩
  | .hbm, ⟨37, _⟩ => ⟨S16000000, .i32⟩
  | .hbm, ⟨38, _⟩ => ⟨S16000000, .i32⟩
  | .hbm, ⟨39, _⟩ => ⟨S16000000, .i32⟩
  | .hbm, ⟨40, _⟩ => ⟨S16000000x1, .i32⟩
  | .hbm, ⟨41, _⟩ => ⟨S16000000, .f32⟩
  | .hbm, ⟨42, _⟩ => ⟨S16000000, .f32⟩
  | .hbm, ⟨43, _⟩ => ⟨S_, .f32⟩
  | .hbm, ⟨44, _⟩ => ⟨S500000, .f32⟩
  | .hbm, ⟨45, _⟩ => ⟨S16000000x1, .i32⟩
  | .hbm, ⟨46, _⟩ => ⟨S500000, .f32⟩
  | .hbm, ⟨47, _⟩ => ⟨S_, .f32⟩
  | .hbm, ⟨48, _⟩ => ⟨S24288, .f32⟩
  | .hbm, ⟨49, _⟩ => ⟨S524288, .f32⟩
  | .hbm, ⟨50, _⟩ => ⟨S4096x128, .f32⟩
  | .hbm, ⟨51, _⟩ => ⟨S_, .f32⟩
  | .hbm, ⟨52, _⟩ => ⟨S24288, .f32⟩
  | .hbm, ⟨53, _⟩ => ⟨S524288, .f32⟩
  | .hbm, ⟨54, _⟩ => ⟨S4096x128, .f32⟩
  | .hbm, ⟨55, _⟩ => ⟨S_, .f32⟩
  | .hbm, ⟨56, _⟩ => ⟨S24288, .f32⟩
  | .hbm, ⟨57, _⟩ => ⟨S524288, .f32⟩
  | .hbm, ⟨58, _⟩ => ⟨S4096x128, .f32⟩
  | .hbm, ⟨59, _⟩ => ⟨S_, .f32⟩
  | .hbm, ⟨60, _⟩ => ⟨S24288, .f32⟩
  | .hbm, ⟨61, _⟩ => ⟨S524288, .f32⟩
  | .hbm, ⟨62, _⟩ => ⟨S4096x128, .f32⟩
  | .hbm, ⟨63, _⟩ => ⟨S_, .f32⟩
  | .hbm, ⟨64, _⟩ => ⟨S24288, .f32⟩
  | .hbm, ⟨65, _⟩ => ⟨S524288, .f32⟩
  | .hbm, ⟨66, _⟩ => ⟨S4096x128, .f32⟩
  | .hbm, ⟨67, _⟩ => ⟨S4096x128, .f32⟩
  | .hbm, ⟨68, _⟩ => ⟨S524288, .f32⟩
  | .hbm, ⟨69, _⟩ => ⟨S500000, .f32⟩
  | .hbm, ⟨70, _⟩ => ⟨S500000x1, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x1_S64 : S64x1.ShapeCasts S64
  bcast_S_S500000 : S_.BroadcastsInDim S500000 (![] : Fin 0 → Fin S500000.rank)
  bcast_S500000_S500000x1_0 : S500000.BroadcastsInDim S500000x1 (![0] : Fin 1 → Fin S500000x1.rank)
  bcast_S_S24288 : S_.BroadcastsInDim S24288 (![] : Fin 0 → Fin S24288.rank)
  concatenates_S500000_S24288_S524288_d0 : Shape.Concatenates [S500000, S24288] S524288 0
  shapeCasts_S524288_S4096x128 : S524288.ShapeCasts S4096x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S4096x128_S524288 : S4096x128.ShapeCasts S524288
  slices_S524288_S500000_0 : S524288.Slices ![0] S500000
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  gather_S64_S500000x1_S500000_n_0_n_n_0_1_1_wf : GatherDims.WF S64 S500000x1 S500000 [] [0] [] [0] [] 1 ![1]
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x128.size a
  hwx1_5 : ∀ i : grid1.Coords, EltTy.bits .f32 = 32 ∨ (Rect.block (s := S4096x128) S512x128.size (cc1_transform_5 i) (hinb1_5 i)).WholeWords (EltTy.packing .f32)

variable [Facts₀]

def gather_S64_S500000x1_S500000_n_0_n_n_0_1_1 : GatherDims S64 S500000x1 S500000 where
  offsetDims := []
  collapsedSliceDims := [0]
  operandBatchingDims := []
  startIndicesBatchingDims := []
  startIndexMap := [0]
  indexVectorDim := 1
  sliceSizes := ![1]
  wf := gather_S64_S500000x1_S500000_n_0_n_n_0_1_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

abbrev win0_0 : Pipeline.Window sig grid0 :=
  Pipeline.Window.ofSpec (Memref.whole main_v10) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v46) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v47) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000 : Shape := ⟨1, ![500000]⟩
abbrev S2x16000000 : Shape := ⟨2, ![2, 16000000]⟩
abbrev S16000000 : Shape := ⟨1, ![16000000]⟩
abbrev S64x1 : Shape := ⟨2, ![64, 1]⟩
abbrev S500000x1 : Shape := ⟨2, ![500000, 1]⟩
abbrev S1x16000000 : Shape := ⟨2, ![1, 16000000]⟩
abbrev S16000000x1 : Shape := ⟨2, ![16000000, 1]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .i32⟩
  | .hbm, ⟨3, _⟩ => ⟨S2x16000000, .i32⟩
  | .hbm, ⟨4, _⟩ => ⟨S16000000, .f32⟩
  | .hbm, ⟨5, _⟩ => ⟨S500000, .f32⟩
  | .hbm, ⟨6, _⟩ => ⟨S500000, .f32⟩
  | .hbm, ⟨7, _⟩ => ⟨S64x1, .f32⟩
  | .hbm, ⟨8, _⟩ => ⟨S500000x1, .f32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S16000000x1, .f32⟩
  | .hbm, ⟨14, _⟩ => ⟨S_, .i32⟩
  | .hbm, ⟨15, _⟩ => ⟨S16000000, .i32⟩
  | .hbm, ⟨16, _⟩ => ⟨S16000000, .i1⟩
  | .hbm, ⟨17, _⟩ => ⟨S_, .i32⟩
  | .hbm, ⟨18, _⟩ => ⟨S16000000, .i32⟩
  | .hbm, ⟨19, _⟩ => ⟨S16000000, .i32⟩
  | .hbm, ⟨20, _⟩ => ⟨S16000000, .i32⟩
  | .hbm, ⟨21, _⟩ => ⟨S16000000x1, .i32⟩
  | .hbm, ⟨22, _⟩ => ⟨S16000000x1, .f32⟩
  | .hbm, ⟨23, _⟩ => ⟨S_, .f32⟩
  | .hbm, ⟨24, _⟩ => ⟨S16000000x1, .f32⟩
  | .hbm, ⟨25, _⟩ => ⟨S16000000x1, .f32⟩
  | .hbm, ⟨26, _⟩ => ⟨S16000000x1, .f32⟩
  | .hbm, ⟨27, _⟩ => ⟨S_, .i32⟩
  | .hbm, ⟨28, _⟩ => ⟨S16000000, .i32⟩
  | .hbm, ⟨29, _⟩ => ⟨S16000000, .i1⟩
  | .hbm, ⟨30, _⟩ => ⟨S_, .i32⟩
  | .hbm, ⟨31, _⟩ => ⟨S16000000, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000, .i32⟩
  | .hbm, ⟨36, _⟩ => ⟨S_, .i32⟩
  | .hbm, ⟨37, _⟩ => ⟨S16000000, .i32⟩
  | .hbm, ⟨38, _⟩ => ⟨S16000000, .i1⟩
  | .hbm, ⟨39, _⟩ => ⟨S_, .i32⟩
  | .hbm, ⟨40, _⟩ => ⟨S16000000, .i32⟩
  | .hbm, ⟨41, _⟩ => ⟨S16000000, .i32⟩
  | .hbm, ⟨42, _⟩ => ⟨S16000000, .i32⟩
  | .hbm, ⟨43, _⟩ => ⟨S16000000x1, .i32⟩
  | .hbm, ⟨44, _⟩ => ⟨S16000000x1, .f32⟩
  | .hbm, ⟨45, _⟩ => ⟨S16000000x1, .f32⟩
  | .hbm, ⟨46, _⟩ => ⟨S_, .f32⟩
  | .hbm, ⟨47, _⟩ => ⟨S500000x1, .f32⟩
  | .hbm, ⟨48, _⟩ => ⟨S16000000x1, .i32⟩
  | .hbm, ⟨49, _⟩ => ⟨S500000x1, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S500000x1, .f32⟩
  | .hbm, ⟨54, _⟩ => ⟨S500000x1, .f32⟩
  | .hbm, ⟨55, _⟩ => ⟨S500000x1, .f32⟩
  | .hbm, ⟨56, _⟩ => ⟨S500000x1, .f32⟩
  | .hbm, ⟨57, _⟩ => ⟨S500000x1, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S16000000_S16000000x1_0 : S16000000.BroadcastsInDim S16000000x1 (![0] : Fin 1 → Fin S16000000x1.rank)
  bcast_S_S16000000 : S_.BroadcastsInDim S16000000 (![] : Fin 0 → Fin S16000000.rank)
  bcast_S_S16000000x1 : S_.BroadcastsInDim S16000000x1 (![] : Fin 0 → Fin S16000000x1.rank)
  bcast_S_S500000x1 : S_.BroadcastsInDim S500000x1 (![] : Fin 0 → Fin S500000x1.rank)
  gather_S500000x1_S16000000x1_S16000000x1_1_0_n_n_0_1_11_wf : GatherDims.WF S500000x1 S16000000x1 S16000000x1 [1] [0] [] [0] [] 1 ![1, 1]
  gather_S500000_S16000000x1_S16000000_n_0_n_n_0_1_1_wf : GatherDims.WF S500000 S16000000x1 S16000000 [] [0] [] [0] [] 1 ![1]
  gather_S64x1_S16000000x1_S16000000x1_1_0_n_n_0_1_11_wf : GatherDims.WF S64x1 S16000000x1 S16000000x1 [1] [0] [] [0] [] 1 ![1, 1]
  scatter_S500000x1_S16000000x1_S16000000x1_1_0_0_1_wf : ScatterDims.WF S500000x1 S16000000x1 S16000000x1 [1] [0] [0] 1

variable [Facts₀]

def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S64x1_S16000000x1_S16000000x1_1_0_n_n_0_1_11 : GatherDims S64x1 S16000000x1 S16000000x1 where
  offsetDims := [1]
  collapsedSliceDims := [0]
  operandBatchingDims := []
  startIndicesBatchingDims := []
  startIndexMap := [0]
  indexVectorDim := 1
  sliceSizes := ![1, 1]
  wf := gather_S64x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf

class Facts : Prop extends Facts₀ where

variable [Facts]
-- ==== Proof.KRun.lean ====
/-
  The idealized kernel's whole run, with the result named.

  @main is five segments: host operations, the first pipelined region (relu times the per-node scale), host operations
  (the gather along the edges, the product with the edge weights, the accumulating scatter, the padding), the second
  pipelined region (the node update), and the host operations that cut the padding off.  The buffer contents at the last
  boundary are the fold `Gen.W5` through these segments from the launch memory.  Every weakly fair execution terminates
  without a fault, and in its final state every unscoped buffer holds `W5`'s contents: in particular the result buffer,
  and the eight argument arrays, which no segment writes.
-/
import proofs.«119918_j52106543235553_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays end as launched. -/
theorem run_result : θ_run defs (onTc (τ := τ) (main (F := F))) ⟨m, fun _ => 0, ρ⟩ (fun r => ∀ c : Dev nD,
      r.2.mem ((c.tc : Thread nD τ).loc main_v50) = W5 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v50 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Whole

end
-- ==== Proof.KRegion0.lean ====
/-
  The first pipelined region as one whole-array function.

  The region's grid has eight points; point `t` stages rows `512 t … 512 t + 511` of each of its three 4096 × 128
  arrays (the two inputs and the output move together: the three index maps are the same map `t ↦ (t, 0)`), and the body
  stores `max(x, 0) · s` of the two staged blocks, element by element.  So what point `t` writes back is block `t` of the
  pointwise function `reluScale a b = fun i => max (a i) 0 · b i` of the two input arrays as the region finds them, the
  eight blocks tile the output array, and the array ends holding `reluScale a b`.
-/
import proofs.«119918_j52106543235553_2_alg».proof.Proof.Gen.KernelIdeal.Frame
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]
variable (V : (c : Dev nD) → (b : Ref sig .tc) → Buf (Elt F) ((c : Thread nD τ).loc b))

theorem off_zero : (![0, 0] : Fin 2 → Nat) = fun _ => 0 := funext fun a => by fin_cases a <;> rfl

/-- `max(a, 0) · b`, element by element, over the padded 4096 × 128 layout. -/
abbrev reluScale (a b : S4096x128.Idx → Elt F .f32) : S4096x128.Idx → Elt F .f32 :=
  fun i => FloatOps.mulf (FloatOps.maximumf (a i) (Scalar.ofBits .f32 0x00000000#32)) (b i)

/-- The body's stored value is that function of its two loaded blocks (the two shape casts are between equal shapes). -/
theorem pay0_eq (x0 x1 : Vec F S512x128 .f32) :
    k0_pay1 x0 x1 = mulf (maximumf x0 (broadcast S512x128 (Scalar.ofBits .f32 0x00000000#32))) x1 := by
  unfold k0_pay1
  simp only [shapeCast_self]

/-- The three index maps agree at every grid point, and the block row stays below eight. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 7
    ∧ win0_2.index t (1 : Fin 2) ≤ 0 :=
  (by decide +kernel : ∀ t : Fin grid0.N, _)

/-- Every block row is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of `reluScale` of the two input arrays. -/
theorem flushed0_eq (c : Dev nD) (t : Fin cfg0.N) :
    (dat0 V c).flushed 2 t = ((cfg0.win 2).blk t).view.read (Elt F) (reluScale (V c main_v10) (V c main_v13)) := by
  show (cfg0.win 2).cut (grid0.coords t) ((dat0 V c).after 2 t) = _
  rw [after0_2]
  unfold out0_2
  rw [View.canon_unit_zero off_zero]
  simp only [View.ld_unit_zero (S := S512x128) off_zero]
  rw [pay0_eq]
  obtain ⟨e0, e1, e2, e3, e4, e5⟩ := idx_facts0 t
  funext j
  show FloatOps.mulf (FloatOps.maximumf (V c main_v10 (((cfg0.win 0).blk t).view.emb j)) (Scalar.ofBits .f32 0x00000000#32)) (V c main_v13 (((cfg0.win 1).blk t).view.emb j))
    = FloatOps.mulf (FloatOps.maximumf (V c main_v10 (((cfg0.win 2).blk t).view.emb j)) (Scalar.ofBits .f32 0x00000000#32)) (V c main_v13 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range. -/
theorem mem_blk0 (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v14).slice (win0_2.rect t)).set ↔ _
  rw [View.set_slice_whole, Rect.mem_set_unit]
  exact Iff.rfl

/-- The eight blocks tile the output array: row `r` is in the block of the point whose block row is `r / 512`. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- The output array after the region: `reluScale` of the two input arrays as the region finds them. -/
theorem final0 (c : Dev nD) : (dat0 V c).arrAt 2 cfg0.N = reluScale (V c main_v10) (V c main_v13) :=
  (dat0 V c).arrAt_eq_of_cover 2 (reluScale (V c main_v10) (V c main_v13)) (fun t _ => flushed0_eq V c t) cover0

end Cert.KernelIdeal.Blocks

end
-- ==== Proof.KRegion1.lean ====
/-
  The second pipelined region as one whole-array function.

  Eight grid points again; point `t` stages rows `512 t … 512 t + 511` of each of its six 4096 × 128 arrays (the five
  inputs and the output move together under the one index map `t ↦ (t, 0)`), and the body stores
  `((((0 − v) + msg) + stim) + rest) / tau` of the five staged blocks, element by element.  So what point `t` writes back is
  block `t` of the pointwise function `nodeUpdate` of the five input arrays as the region finds them, the eight blocks
  tile the output array, and the array ends holding `nodeUpdate` of them.
-/
import proofs.«119918_j52106543235553_2_alg».proof.Proof.KRegion0

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]
variable (V : (c : Dev nD) → (b : Ref sig .tc) → Buf (Elt F) ((c : Thread nD τ).loc b))

/-- `((((0 − v) + msg) + stim) + rest) / tau`, element by element, over the padded 4096 × 128 layout. -/
abbrev nodeUpdate (v msg stim rest tau : S4096x128.Idx → Elt F .f32) : S4096x128.Idx → Elt F .f32 :=
  fun i => FloatOps.divf (FloatOps.addf (FloatOps.addf (FloatOps.addf (FloatOps.subf (Scalar.ofBits .f32 0x00000000#32) (v i)) (msg i)) (stim i)) (rest i)) (tau i)

/-- The body's stored value is that function of its five loaded blocks (the shape casts are between equal shapes). -/
theorem pay1_eq (x0 x1 x2 x3 x4 : Vec F S512x128 .f32) :
    k1_pay1 x0 x1 x2 x3 x4
      = divf (addf (addf (addf (subf (broadcast S512x128 (Scalar.ofBits .f32 0x00000000#32)) x0) x1) x2) x3) x4 := by
  unfold k1_pay1
  simp only [shapeCast_self]

/-- The six index maps agree at every grid point, and the block row stays below eight. -/
theorem idx_facts1 : ∀ t : Fin cfg1.N, win1_0.index t (0 : Fin 2) = win1_5.index t (0 : Fin 2)
    ∧ win1_0.index t (1 : Fin 2) = win1_5.index t (1 : Fin 2)
    ∧ win1_1.index t (0 : Fin 2) = win1_5.index t (0 : Fin 2)
    ∧ win1_1.index t (1 : Fin 2) = win1_5.index t (1 : Fin 2)
    ∧ win1_2.index t (0 : Fin 2) = win1_5.index t (0 : Fin 2)
    ∧ win1_2.index t (1 : Fin 2) = win1_5.index t (1 : Fin 2)
    ∧ win1_3.index t (0 : Fin 2) = win1_5.index t (0 : Fin 2)
    ∧ win1_3.index t (1 : Fin 2) = win1_5.index t (1 : Fin 2)
    ∧ win1_4.index t (0 : Fin 2) = win1_5.index t (0 : Fin 2)
    ∧ win1_4.index t (1 : Fin 2) = win1_5.index t (1 : Fin 2)
    ∧ win1_5.index t (0 : Fin 2) ≤ 7
    ∧ win1_5.index t (1 : Fin 2) ≤ 0 :=
  (by decide +kernel : ∀ t : Fin grid1.N, _)

/-- Every block row is some point's. -/
theorem idx_onto1 : ∀ q0 : Fin 8, ∃ t : Fin cfg1.N, win1_5.index t = ![q0.val, 0] :=
  (by decide +kernel : ∀ q0 : Fin 8, ∃ t : Fin grid1.N, win1_5.index t = ![q0.val, 0])

/-- What point `t` writes back is block `t` of `nodeUpdate` of the five input arrays. -/
theorem flushed1_eq (c : Dev nD) (t : Fin cfg1.N) :
    (dat1 V c).flushed 5 t = ((cfg1.win 5).blk t).view.read (Elt F)
      (nodeUpdate (V c main_v34) (V c main_v37) (V c main_v40) (V c main_v43) (V c main_v46)) := by
  show (cfg1.win 5).cut (grid1.coords t) ((dat1 V c).after 5 t) = _
  rw [after1_5]
  unfold out1_5
  rw [View.canon_unit_zero off_zero]
  simp only [View.ld_unit_zero (S := S512x128) off_zero]
  rw [pay1_eq]
  obtain ⟨e0, e1, e2, e3, e4, e5, e6, e7, e8, e9, e10, e11⟩ := idx_facts1 t
  funext j
  show FloatOps.divf (FloatOps.addf (FloatOps.addf (FloatOps.addf (FloatOps.subf (Scalar.ofBits .f32 0x00000000#32) (V c main_v34 (((cfg1.win 0).blk t).view.emb j))) (V c main_v37 (((cfg1.win 1).blk t).view.emb j))) (V c main_v40 (((cfg1.win 2).blk t).view.emb j))) (V c main_v43 (((cfg1.win 3).blk t).view.emb j))) (V c main_v46 (((cfg1.win 4).blk t).view.emb j))
    = FloatOps.divf (FloatOps.addf (FloatOps.addf (FloatOps.addf (FloatOps.subf (Scalar.ofBits .f32 0x00000000#32) (V c main_v34 (((cfg1.win 5).blk t).view.emb j))) (V c main_v37 (((cfg1.win 5).blk t).view.emb j))) (V c main_v40 (((cfg1.win 5).blk t).view.emb j))) (V c main_v43 (((cfg1.win 5).blk t).view.emb j))) (V c main_v46 (((cfg1.win 5).blk t).view.emb j))
  have h0 : ((cfg1.win 0).blk t).view.emb j = ((cfg1.win 5).blk t).view.emb j := by
    funext a; apply Fin.ext
    match a with
    | ⟨0, _⟩ => show win1_0.index t (0 : Fin 2) * 512 + 1 * (j 0).val = win1_5.index t (0 : Fin 2) * 512 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 512 + 1 * (j 0).val = win1_5.index t (0 : Fin 2) * 512 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb j = ((cfg1.win 5).blk t).view.emb j := by
    funext a; apply Fin.ext
    match a with
    | ⟨0, _⟩ => show win1_2.index t (0 : Fin 2) * 512 + 1 * (j 0).val = win1_5.index t (0 : Fin 2) * 512 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 512 + 1 * (j 0).val = win1_5.index t (0 : Fin 2) * 512 + 1 * (j 0).val; omega
    | ⟨1, _⟩ => show win1_3.index t (1 : Fin 2) * 128 + 1 * (j 1).val = win1_5.index t (1 : Fin 2) * 128 + 1 * (j 1).val; omega
  have h4 : ((cfg1.win 4).blk t).view.emb j = ((cfg1.win 5).blk t).view.emb j := by
    funext a; apply Fin.ext
    match a with
    | ⟨0, _⟩ => show win1_4.index t (0 : Fin 2) * 512 + 1 * (j 0).val = win1_5.index t (0 : Fin 2) * 512 + 1 * (j 0).val; omega
    | ⟨1, _⟩ => show win1_4.index t (1 : Fin 2) * 128 + 1 * (j 1).val = win1_5.index t (1 : Fin 2) * 128 + 1 * (j 1).val; omega
  rw [h0, h1, h2, h3, h4]

/-- An index of the output array is in point `t`'s block iff each coordinate is in the block's range. -/
theorem mem_blk1 (t : Fin cfg1.N) (i : S4096x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v47).slice (win1_5.rect t)).set ↔ _
  rw [View.set_slice_whole, Rect.mem_set_unit]
  exact Iff.rfl

/-- The eight blocks tile the output array. -/
theorem cover1 (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  obtain ⟨t, ht⟩ := idx_onto1 ⟨(i 0).val / 512, by omega⟩
  have q0 : win1_5.index t (0 : Fin 2) = (i 0).val / 512 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 128 ≤ (i 1).val ∧ (i 1).val < win1_5.index t (1 : Fin 2) * 128 + 128; omega

/-- The output array after the region: `nodeUpdate` of the five input arrays as the region finds them. -/
theorem final1 (c : Dev nD) : (dat1 V c).arrAt 5 cfg1.N
    = nodeUpdate (V c main_v34) (V c main_v37) (V c main_v40) (V c main_v43) (V c main_v46) :=
  (dat1 V c).arrAt_eq_of_cover 5 (nodeUpdate (V c main_v34) (V c main_v37) (V c main_v40) (V c main_v43) (V c main_v46))
    (fun t _ => flushed1_eq V c t) cover1

end Cert.KernelIdeal.Blocks

end
-- ==== Proof.KHost.lean ====
/-
  The idealized kernel's result as one term of its eight arguments.

  Between the launch and the return the program pads each node array with zeros (the time constants with ones) to
  4096 · 128 = 524288 entries and lays it out as 4096 × 128 (`pad`), runs a region on the padded layout, and cuts the
  first 500000 entries back out (`unpad`).  Around the two regions the host computes, per node, the scale
  `type_params[type(n)]` (`scale`: a gather of one table entry at the type index, a negative index counted from the
  end), and, per destination node, the sum over its incoming edges of `w(e) · pre(src(e))` (`nodeMsg`: a gather of `pre`
  along the edges' sources, the product with the weights, an accumulating scatter at the edges' destinations into zeros).
  Each theorem below reads one boundary of the run's fold of buffer contents; the last, `result_eq`, says the result
  buffer ends at `kernelOut` of the launch contents of the eight arguments.
-/
import proofs.«119918_j52106543235553_2_alg».proof.Proof.KRegion1

set_option maxRecDepth 16384

noncomputable section

namespace Cert.KernelIdeal.HostSide

open Cert.KernelIdeal Cert.KernelIdeal.Gen Cert.KernelIdeal.Blocks
open Idealize.ShloMosaic Idealize.ShloMosaic.TcCoe Idealize.ShloMosaic.Tactic Idealize.ShloMosaic.StableHlo
open Idealize.SL Idealize.SL.Sem

variable {F : FTy → Type} [FloatOps F]

/-! ## The stages -/

/-- A node array padded with the constant of bit pattern `z` to 524288 entries, laid out 4096 × 128. -/
def pad (z : BitVec 32) (x : (⟨S500000, .f32⟩ : BufTy).Contents (Elt F)) : (⟨S4096x128, .f32⟩ : BufTy).Contents (Elt F) :=
  shapeCast _ (concatenate S524288 0 [⟨S500000, x⟩, ⟨S24288, broadcastInDim S24288 ![] bcast_S_S24288 (constant S_ .f32 z)⟩]
    concatenates_S500000_S24288_S524288_d0) shapeCasts_S524288_S4096x128

/-- The first 500000 entries of a 4096 × 128 layout, as a node array. -/
def unpad (y : (⟨S4096x128, .f32⟩ : BufTy).Contents (Elt F)) : (⟨S500000, .f32⟩ : BufTy).Contents (Elt F) :=
  extractStridedSlice S500000 ![0] (shapeCast _ y shapeCasts_S4096x128_S524288) slices_S524288_S500000_0

/-- The per-node scale: the table's entry at the node's type, a negative type index counted from the end. -/
def scale (x2 : (⟨S500000, .i32⟩ : BufTy).Contents (Elt F)) (x7 : (⟨S64x1, .f32⟩ : BufTy).Contents (Elt F)) : (⟨S500000, .f32⟩ : BufTy).Contents (Elt F) :=
  Host.gather gather_S64_S500000x1_S500000_n_0_n_n_0_1_1 (shapeCast _ x7 shapeCasts_S64x1_S64)
    (broadcastInDim S500000x1 ![0] bcast_S500000_S500000x1_0
      (select (cmpi .slt x2 (broadcastInDim S500000 ![] bcast_S_S500000 (constantI S_ 32 0#32)))
        (addi x2 (broadcastInDim S500000 ![] bcast_S_S500000 (constantI S_ 32 64#32))) x2))

/-- The edges' source nodes: row 0 of the edge index. -/
def srcIdx (x3 : (⟨S2x16000000, .i32⟩ : BufTy).Contents (Elt F)) : (⟨S16000000, .i32⟩ : BufTy).Contents (Elt F) :=
  shapeCast _ (extractStridedSlice S1x16000000 ![0, 0] x3 slices_S2x16000000_S1x16000000_0_0) shapeCasts_S1x16000000_S16000000

/-- The edges' destination nodes: row 1 of the edge index. -/
def dstIdx (x3 : (⟨S2x16000000, .i32⟩ : BufTy).Contents (Elt F)) : (⟨S16000000, .i32⟩ : BufTy).Contents (Elt F) :=
  shapeCast _ (extractStridedSlice S1x16000000 ![1, 0] x3 slices_S2x16000000_S1x16000000_1_0) shapeCasts_S1x16000000_S16000000

/-- The source nodes with a negative index counted from the end. -/
def srcNorm (x3 : (⟨S2x16000000, .i32⟩ : BufTy).Contents (Elt F)) : (⟨S16000000, .i32⟩ : BufTy).Contents (Elt F) :=
  select (cmpi .slt (srcIdx (F := F) x3) (broadcastInDim S16000000 ![] bcast_S_S16000000 (constantI S_ 32 0#32)))
    (addi (srcIdx (F := F) x3) (broadcastInDim S16000000 ![] bcast_S_S16000000 (constantI S_ 32 500000#32))) (srcIdx (F := F) x3)

/-- The message arriving at each node: the sum over its incoming edges of the weight times `pre` at the edge's source. -/
def nodeMsg (pre : (⟨S500000, .f32⟩ : BufTy).Contents (Elt F)) (x3 : (⟨S2x16000000, .i32⟩ : BufTy).Contents (Elt F)) (x4 : (⟨S16000000, .f32⟩ : BufTy).Contents (Elt F)) : (⟨S500000, .f32⟩ : BufTy).Contents (Elt F) :=
  Host.scatterAdd scatter_S500000_S16000000x1_S16000000_n_0_0_1
    (broadcastInDim S500000 ![] bcast_S_S500000 (constant S_ .f32 0x00000000#32))
    (broadcastInDim S16000000x1 ![0] bcast_S16000000_S16000000x1_0 (dstIdx (F := F) x3))
    (mulf x4 (Host.gather gather_S500000_S16000000x1_S16000000_n_0_n_n_0_1_1 pre
      (broadcastInDim S16000000x1 ![0] bcast_S16000000_S16000000x1_0 (srcNorm (F := F) x3))))

/-- `max(v, 0) · scale` per node: what the first region computes, cut back to the nodes. -/
def preOf (x0 : (⟨S500000, .f32⟩ : BufTy).Contents (Elt F)) (x2 : (⟨S500000, .i32⟩ : BufTy).Contents (Elt F)) (x7 : (⟨S64x1, .f32⟩ : BufTy).Contents (Elt F)) : (⟨S500000, .f32⟩ : BufTy).Contents (Elt F) :=
  unpad (reluScale (pad 0x00000000#32 x0) (pad 0x00000000#32 (scale x2 x7)))

/-- The program's result as one term of its arguments. -/
def kernelOut (x0 x1 : (⟨S500000, .f32⟩ : BufTy).Contents (Elt F)) (x2 : (⟨S500000, .i32⟩ : BufTy).Contents (Elt F)) (x3 : (⟨S2x16000000, .i32⟩ : BufTy).Contents (Elt F)) (x4 : (⟨S16000000, .f32⟩ : BufTy).Contents (Elt F))
    (x5 x6 : (⟨S500000, .f32⟩ : BufTy).Contents (Elt F)) (x7 : (⟨S64x1, .f32⟩ : BufTy).Contents (Elt F)) : (⟨S500000x1, .f32⟩ : BufTy).Contents (Elt F) :=
  broadcastInDim S500000x1 ![0] bcast_S500000_S500000x1_0
    (unpad (nodeUpdate (pad 0x00000000#32 x0) (pad 0x00000000#32 (nodeMsg (preOf x0 x2 x7) x3 x4)) (pad 0x00000000#32 x1)
      (pad 0x00000000#32 x5) (pad 0x3F800000#32 x6)))

/-! ## The boundaries of the run, read -/

variable (m : (ℓ : Loc nD τ sig) → Buf (Elt F) ℓ) (ρ : Dev nD → PrngReg)

/-- The first region finds the padded voltages in its first window's array. -/
theorem V1_v10 (c : Dev nD) : V1 m ρ c main_v10 = pad 0x00000000#32 (m ((c : Thread nD τ).loc main_arg0)) := by
  show StableHlo.after hostOps0 (W0 m ρ c) (Proc.devRef .tc main_v10) = _
  after_results_simp
  rfl

/-- The first region finds the padded per-node scales in its second window's array. -/
theorem V1_v13 (c : Dev nD) : V1 m ρ c main_v13
    = pad 0x00000000#32 (scale (m ((c : Thread nD τ).loc main_arg2)) (m ((c : Thread nD τ).loc main_arg7))) := by
  show StableHlo.after hostOps0 (W0 m ρ c) (Proc.devRef .tc main_v13) = _
  after_results_simp
  rfl

/-- No operation before the first region, and no window of it, writes an argument array: at the region's exit each still
    holds its launch contents. -/
theorem W2_main_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results_simp)
theorem W2_main_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp)
theorem W2_main_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp)
theorem W2_main_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp)
theorem W2_main_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp)
theorem W2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)

/-- After the first region its output array holds `max(v, 0) · scale` on the padded layout. -/
theorem W2_v14 (c : Dev nD) : W2 m ρ c (Proc.devRef .tc main_v14)
    = reluScale (pad 0x00000000#32 (m ((c : Thread nD τ).loc main_arg0))) (pad 0x00000000#32 (scale (m ((c : Thread nD τ).loc main_arg2)) (m ((c : Thread nD τ).loc main_arg7)))) := by
  refine (W2_arr m ρ c 2).trans ?_
  rw [final0 (V1 m ρ) c, V1_v10, V1_v13]

/-- The second stretch of host operations, from ANY entry contents `Vl`: what it leaves in the second region's five
    input arrays, as terms of the buffers it reads (the arguments and the first region's output array). -/
theorem ops1_v34 (Vl : Valuation τ sig (Elt F)) : StableHlo.after hostOps1 Vl (Proc.devRef .tc main_v34) = pad 0x00000000#32 (Vl (Proc.devRef .tc main_arg0)) := by
  after_results_simp
  rfl

theorem ops1_v37 (Vl : Valuation τ sig (Elt F)) : StableHlo.after hostOps1 Vl (Proc.devRef .tc main_v37)
    = pad 0x00000000#32 (nodeMsg (unpad (Vl (Proc.devRef .tc main_v14))) (Vl (Proc.devRef .tc main_arg3)) (Vl (Proc.devRef .tc main_arg4))) := by
  after_results_simp
  rfl

theorem ops1_v40 (Vl : Valuation τ sig (Elt F)) : StableHlo.after hostOps1 Vl (Proc.devRef .tc main_v40) = pad 0x00000000#32 (Vl (Proc.devRef .tc main_arg1)) := by
  after_results_simp
  rfl

theorem ops1_v43 (Vl : Valuation τ sig (Elt F)) : StableHlo.after hostOps1 Vl (Proc.devRef .tc main_v43) = pad 0x00000000#32 (Vl (Proc.devRef .tc main_arg5)) := by
  after_results_simp
  rfl

theorem ops1_v46 (Vl : Valuation τ sig (Elt F)) : StableHlo.after hostOps1 Vl (Proc.devRef .tc main_v46) = pad 0x3F800000#32 (Vl (Proc.devRef .tc main_arg6)) := by
  after_results_simp
  rfl

/-- The second region finds the padded voltages in its first window's array. -/
theorem V3_v34 (c : Dev nD) : V3 m ρ c main_v34 = pad 0x00000000#32 (m ((c : Thread nD τ).loc main_arg0)) :=
  (ops1_v34 (W2 m ρ c)).trans (by rw [W2_main_arg0])

/-- The second region finds the padded messages in its second window's array. -/
theorem V3_v37 (c : Dev nD) : V3 m ρ c main_v37
    = pad 0x00000000#32 (nodeMsg (preOf (m ((c : Thread nD τ).loc main_arg0)) (m ((c : Thread nD τ).loc main_arg2)) (m ((c : Thread nD τ).loc main_arg7))) (m ((c : Thread nD τ).loc main_arg3)) (m ((c : Thread nD τ).loc main_arg4))) :=
  (ops1_v37 (W2 m ρ c)).trans (by rw [W2_main_arg3, W2_main_arg4, W2_v14]; rfl)

/-- The second region finds the padded stimuli in its third window's array. -/
theorem V3_v40 (c : Dev nD) : V3 m ρ c main_v40 = pad 0x00000000#32 (m ((c : Thread nD τ).loc main_arg1)) :=
  (ops1_v40 (W2 m ρ c)).trans (by rw [W2_main_arg1])

/-- The second region finds the padded resting potentials in its fourth window's array. -/
theorem V3_v43 (c : Dev nD) : V3 m ρ c main_v43 = pad 0x00000000#32 (m ((c : Thread nD τ).loc main_arg5)) :=
  (ops1_v43 (W2 m ρ c)).trans (by rw [W2_main_arg5])

/-- The second region finds the time constants, padded with ones, in its fifth window's array. -/
theorem V3_v46 (c : Dev nD) : V3 m ρ c main_v46 = pad 0x3F800000#32 (m ((c : Thread nD τ).loc main_arg6)) :=
  (ops1_v46 (W2 m ρ c)).trans (by rw [W2_main_arg6])

/-- After the second region its output array holds the node update on the padded layout. -/
theorem W4_v47 (c : Dev nD) : W4 m ρ c (Proc.devRef .tc main_v47)
    = nodeUpdate (pad 0x00000000#32 (m ((c : Thread nD τ).loc main_arg0)))
        (pad 0x00000000#32 (nodeMsg (preOf (m ((c : Thread nD τ).loc main_arg0)) (m ((c : Thread nD τ).loc main_arg2)) (m ((c : Thread nD τ).loc main_arg7))) (m ((c : Thread nD τ).loc main_arg3)) (m ((c : Thread nD τ).loc main_arg4))))
        (pad 0x00000000#32 (m ((c : Thread nD τ).loc main_arg1))) (pad 0x00000000#32 (m ((c : Thread nD τ).loc main_arg5))) (pad 0x3F800000#32 (m ((c : Thread nD τ).loc main_arg6))) := by
  refine (W4_arr m ρ c 5).trans ?_
  rw [final1 (V3 m ρ) c, V3_v34, V3_v37, V3_v40, V3_v43, V3_v46]

/-- The last stretch of host operations, from any entry contents: the second region's output array cut back to the nodes
    and set as a column. -/
theorem ops2_v50 (Vl : Valuation τ sig (Elt F)) : StableHlo.after hostOps2 Vl (Proc.devRef .tc main_v50)
    = broadcastInDim S500000x1 ![0] bcast_S500000_S500000x1_0 (unpad (Vl (Proc.devRef .tc main_v47))) := by
  after_results_simp
  rfl

/-- THE RESULT: at the last boundary the result buffer holds `kernelOut` of the arguments' launch contents. -/
theorem result_eq (c : Dev nD) : W5 m ρ c (Proc.devRef .tc main_v50)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (ops2_v50 (W4 m ρ c)).trans ?_
  rw [W4_v47]; rfl

end Cert.KernelIdeal.HostSide

end
-- ==== Proof.LibScatterWords.lean ====
/-
  General lemmas for integer index arithmetic feeding an accumulating scatter, read at the exact instance.

  * 32-bit words that are known non-negative: the signed quotient and remainder by a positive word are the unsigned ones
    (`divsi_pos`, `remsi_pos`), the signed comparisons against zero (`cmpi_slt_zero`, `cmpi_sgt_zero`), and the signed
    value is the unsigned one (`toInt_of_msb_false`).
  * jnp's integer helpers one word at a time — floor division `fdivW`, remainder `remW`, and numpy's negative-index
    normalisation `normW` — and that on a non-negative dividend (and a positive divisor) they are the plain quotient, the
    plain remainder, and the identity (`fdivW_eq`, `remW_128`, `normW_eq`).
  * Where an update of a scatter lands: `d.resultIdx? j idx = some i` exactly when start + window is `i`'s coordinate on
    every operand axis (`resultIdx?_eq_some_iff`), for any dimension numbers.
  * The accumulating scatter at the exact instance, at an element: the operand's element plus the sum of the updates landing
    on it (`hostScatterAdd_eq`), and `Host.scatterAdd` at the exact instance as that function (`scatterAdd_ideal`). Use these two
    by `rw`, and never let a definitional check (`rfl`, `show`, `exact`, `simp`) unfold the scatter on a large index type: the
    normal form of a sum of extended reals over a finite type enumerates the type.
-/
import Idealize.ShloMosaic.PureOps
import Idealize.ShloMosaic.PureOps.Ideal
import Idealize.ShloMosaic.Lib.ValueIdx
noncomputable section
namespace Cert.Lib.Scatter
open Idealize.ShloMosaic

/-! ## Non-negative 32-bit words -/

theorem msb_false_of_lt {x : BitVec 32} {n : Nat} (h : x.toNat < n) (hn : n ≤ 2147483648) : x.msb = false := by
  rw [BitVec.msb_eq_false_iff_two_mul_lt]; omega

theorem toInt_of_msb_false {x : BitVec 32} (h : x.msb = false) : x.toInt = (x.toNat : Int) := by
  rw [BitVec.toInt_eq_msb_cond, h]; simp

theorem not_corner (x k : BitVec 32) (h0 : k ≠ 0) (h1 : k ≠ -1) : ¬ IntOp.SDivCorner x k := by
  rintro (h | ⟨_, h⟩)
  · exact h0 h
  · exact h1 h

theorem divsi_pos (u : ArithUnit) (x k : BitVec 32) (hx : x.msb = false) (hk : k.msb = false) (h0 : k ≠ 0) (h1 : k ≠ -1) :
    IntOp.divsi u x k = x / k := by
  unfold IntOp.divsi
  rw [if_neg (not_corner x k h0 h1), BitVec.sdiv_eq, hx, hk]
  rfl

theorem remsi_pos (u : ArithUnit) (x k : BitVec 32) (hx : x.msb = false) (hk : k.msb = false) (h0 : k ≠ 0) (h1 : k ≠ -1) :
    IntOp.remsi u x k = x % k := by
  unfold IntOp.remsi
  rw [if_neg (not_corner x k h0 h1), BitVec.srem_eq, hx, hk]

theorem cmpi_slt_zero (x : BitVec 32) (hx : x.msb = false) : IntOp.cmpi .slt x 0#32 = 0#1 := by
  unfold IntOp.cmpi
  simp only [BitVec.slt, toInt_of_msb_false hx]
  have h : ¬ ((x.toNat : Int) < 0) := by omega
  simp [h]

theorem cmpi_sgt_zero (x : BitVec 32) (hx : x.msb = false) (h0 : x ≠ 0) : IntOp.cmpi .sgt x 0#32 = 1#1 := by
  unfold IntOp.cmpi
  simp only [BitVec.slt, toInt_of_msb_false hx]
  have : 0 < x.toNat := by
    rcases Nat.eq_zero_or_pos x.toNat with h | h
    · exact absurd (BitVec.eq_of_toNat_eq (by simpa using h)) h0
    · exact h
  simp [this]

theorem andi_zero_left (y : BitVec 1) : IntOp.andi 0#1 y = 0#1 := by unfold IntOp.andi; simp

theorem toNat_ofNat_small (n : Nat) (hn : n < 2147483648) : (BitVec.ofNat 32 n).toNat = n := by
  rw [BitVec.toNat_ofNat]; exact Nat.mod_eq_of_lt (by omega)

/-- A word that is signed-at-least 0 and signed-below 2097152 is below 2097152 unsigned. -/
theorem toNat_lt_of_sge_slt (x : BitVec 32) (h1 : IntOp.cmpi .sge x 0#32 = 1#1) (h2 : IntOp.cmpi .slt x 2097152#32 = 1#1) :
    x.toNat < 2097152 := by
  unfold IntOp.cmpi at h1 h2
  simp only [BitVec.sle, BitVec.slt] at h1 h2
  have e0 : (0#32).toInt = 0 := by decide
  have e1 : (2097152#32).toInt = 2097152 := by decide
  rw [e0] at h1
  rw [e1] at h2
  have g1 : (0 : Int) ≤ x.toInt := by
    by_contra hc
    rw [decide_eq_false hc] at h1
    exact absurd h1 (by decide)
  have g2 : x.toInt < 2097152 := by
    by_contra hc
    rw [decide_eq_false hc] at h2
    exact absurd h2 (by decide)
  have := BitVec.toInt_eq_toNat_cond x
  split at this <;> omega

/-! ## jnp's integer helpers, one word at a time -/

/-- jnp's floor division, one word by one word. -/
def fdivW (x k : BitVec 32) : BitVec 32 :=
  let v2 := IntOp.divsi .host x k
  let v3 : BitVec 32 := if x = 0 then 0 else if x.msb then -1 else 1
  let v4 : BitVec 32 := if k = 0 then 0 else if k.msb then -1 else 1
  let v6 := IntOp.cmpi .ne v3 v4
  let v8 := IntOp.remsi .host x k
  let v10 := IntOp.cmpi .ne v8 0#32
  let v11 := IntOp.andi v6 v10
  let v13 := IntOp.subi v2 1#32
  Scalar.select v11 v13 v2

/-- jnp's remainder, one word by one word. -/
def remW (x k : BitVec 32) : BitVec 32 :=
  let v1 := IntOp.cmpi .eq k 0#32
  let v2 := Scalar.select v1 1#32 k
  let v4 := IntOp.remsi .host x v2
  let v6 := IntOp.cmpi .ne v4 0#32
  let v8 := IntOp.cmpi .slt v4 0#32
  let v9 := IntOp.cmpi .slt v2 0#32
  let v11 := IntOp.cmpi .ne v8 v9
  let v12 := IntOp.andi v11 v6
  let v14 := IntOp.addi v4 v2
  Scalar.select v12 v14 v4

/-- numpy's negative-index normalisation, one word. -/
def normW (v n : BitVec 32) : BitVec 32 := Scalar.select (IntOp.cmpi .slt v 0#32) (IntOp.addi v n) v

theorem fdivW_eq (x k : BitVec 32) (hx : x.msb = false) (hk : k.msb = false) (h0 : k ≠ 0) (h1 : k ≠ -1) :
    fdivW x k = x / k := by
  unfold fdivW
  simp only [divsi_pos .host x k hx hk h0 h1, remsi_pos .host x k hx hk h0 h1, hx, hk, if_neg h0]
  by_cases hx0 : x = 0
  · subst hx0
    have hz : ((0 : BitVec 32) % k) = 0 := by simp
    have e : IntOp.andi (IntOp.cmpi CmpIPredicate.ne (0 : BitVec 32) 1) (IntOp.cmpi CmpIPredicate.ne (0 : BitVec 32) 0#32) = 0#1 := by decide
    simp only [hz, eq_self_iff_true, if_true, Bool.false_eq_true, if_false, e, ValueIdx.select_zero]
  · simp only [if_neg hx0]
    have e : IntOp.cmpi CmpIPredicate.ne (1 : BitVec 32) (1 : BitVec 32) = 0#1 := by decide
    simp only [Bool.false_eq_true, if_false, e, andi_zero_left, ValueIdx.select_zero]

theorem normW_eq (v n : BitVec 32) (hv : v.msb = false) : normW v n = v := by
  unfold normW
  rw [cmpi_slt_zero v hv, ValueIdx.select_zero]

theorem remW_128 (x : BitVec 32) (hx : x.msb = false) : remW x 128#32 = x % 128#32 := by
  unfold remW
  have e1 : IntOp.cmpi CmpIPredicate.eq 128#32 0#32 = 0#1 := by decide
  simp only [e1, ValueIdx.select_zero, remsi_pos .host x 128#32 hx (by decide) (by decide) (by decide)]
  have hm : (x % 128#32).msb = false := by
    apply msb_false_of_lt (n := 128) _ (by decide)
    rw [BitVec.toNat_umod]; exact Nat.mod_lt _ (by decide)
  have e2 : IntOp.cmpi CmpIPredicate.slt 128#32 0#32 = 0#1 := by decide
  have e3 : IntOp.cmpi CmpIPredicate.ne 0#1 0#1 = 0#1 := by decide
  rw [cmpi_slt_zero _ hm, e2, e3, andi_zero_left, ValueIdx.select_zero]

/-! ## Where an update lands, and the exact accumulating scatter -/

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have := Option.some.inj h
      intro a
      have h2 := congrFun this a
      have := hb a
      have h3 := congrArg Fin.val h2
      simp only at h3
      omega
    · cases h
  · intro h
    have hb : ∀ a, 0 ≤ d.start j idx a + d.window j a ∧ d.start j idx a + d.window j a < s.size a := by
      intro a; rw [h a]; have := (i a).isLt; omega
    rw [dif_pos hb]
    congr 1
    funext a
    apply Fin.ext
    simp only
    rw [h a]; simp

/-- An accumulating scatter at an element: the operand's element plus the sum of the updates landing on it. -/
theorem hostScatterAdd_eq {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- At the exact instance the host's accumulating scatter is the exact one (as functions of the index). -/
theorem scatterAdd_ideal {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

end Cert.Lib.Scatter
-- ==== Proof.Spec.lean ====
/-
  The node update as one function of the eight arrays, index by index, over the extended reals.

  Nodes `n < 500000`, edges `e < 16000000`, 64 node types.  An index word is read signed; a negative one is counted from
  the end of its axis (`normW`), and what is still outside the axis is clamped into it (`clampTo`): that is how an indexed
  read treats its index.  With `src(e)`, `type(n)` read so,

    pre(n)  = max(v(n), 0) · scale(type(n))
    msg(n)  = 0 + Σ { w(e) · pre(src(e)) : e an edge whose destination word, read signed, is n }
    out(n)  = ((((0 − v(n)) + msg(n)) + stim(n)) + rest(n)) / tau(n).

  An edge whose destination word is not a node contributes to no sum.  The two facts of arithmetic that relate other
  spellings of this function to it hold for ALL extended reals, the infinities included: `0 − x = −x`, and
  multiplication is associative.
-/
import Idealize.ShloMosaic.PureOps
import Idealize.ShloMosaic.PureOps.Ideal
import Idealize.ShloMosaic.PureOps.Ideal.Laws
import Idealize.ShloMosaic.Lib.ValueIdx
import proofs.«119918_j52106543235553_2_alg».proof.Proof.LibScatterWords

noncomputable section

namespace Cert.Spec

open Idealize.ShloMosaic Idealize.ShloMosaic.ValueIdx Cert.Lib.Scatter

/-- A signed index word clamped into an axis of `n` entries. -/
def clampTo (n : Nat) (hn : 0 < n) (v : BitVec 32) : Fin n := ⟨min v.toInt.toNat (n - 1), by omega⟩

/-- The exact zero as the programs spell it: the value of the all-zero bit pattern. -/
abbrev z0 : EReal := Ideal.ofBits .f32 0x00000000#32

theorem z0_eq : z0 = 0 := Ideal.ofBits_zero_f32

variable (x0 x1 : (⟨1, ![500000]⟩ : Shape).Idx → EReal) (x2 : (⟨1, ![500000]⟩ : Shape).Idx → BitVec 32)
  (x3 : (⟨2, ![2, 16000000]⟩ : Shape).Idx → BitVec 32) (x4 : (⟨1, ![16000000]⟩ : Shape).Idx → EReal)
  (x5 x6 : (⟨1, ![500000]⟩ : Shape).Idx → EReal) (x7 : (⟨2, ![64, 1]⟩ : Shape).Idx → EReal)

/-- The source node of edge `e`. -/
def srcNode (e : Fin 16000000) : Fin 500000 := clampTo 500000 (by decide) (normW (x3 (ix2 (0 : Fin 2) e)) 500000#32)

/-- The type of node `n`. -/
def typeOf (n : Fin 500000) : Fin 64 := clampTo 64 (by decide) (normW (x2 (ix1 n)) 64#32)

/-- `max(v(n), 0) · scale(type(n))`. -/
def preAt (n : Fin 500000) : EReal := max (x0 (ix1 n)) z0 * x7 (ix2 (typeOf x2 n) (0 : Fin 1))

/-- The message arriving at node `n`. -/
def msgAt (n : Fin 500000) : EReal :=
  z0 + ∑ j ∈ (Finset.univ : Finset (⟨1, ![16000000]⟩ : Shape).Idx).filter
      (fun j => (x3 (ix2 (1 : Fin 2) (j 0))).toInt = ((n.val : Nat) : Int)),
    x4 j * preAt x0 x2 x7 (srcNode x3 (j 0))

/-- The node update at result index `(n, 0)`. -/
def out (i : (⟨2, ![500000, 1]⟩ : Shape).Idx) : EReal :=
  Ideal.div ((((z0 - x0 (ix1 (i 0))) + msgAt x0 x2 x3 x4 x7 (i 0)) + x1 (ix1 (i 0))) + x5 (ix1 (i 0))) (x6 (ix1 (i 0)))

/-- `0 − x = −x` on the extended reals. -/
theorem z0_sub (x : EReal) : z0 - x = -x := by rw [z0_eq, zero_sub]

end Cert.Spec

end
-- ==== Proof.LibTake.lean ====
/-
  General lemmas: a StableHLO gather in its two simplest shapes, read at an index.

  * `x[idx]` of a flat array `x : [N]` at a column of start indices `idx : [M, 1]`, result `[M]`
    (`take1Dims`, `gather_take1_apply`): result element `j` is `x` at the start index `idx[j, 0]`, read as a signed
    integer and clamped into `[0, N − 1]`.
  * the same for a one-column operand `x : [N, 1]`, result `[M, 1]` (`takeCol1Dims`, `gather_takeCol1_apply`):
    result element `(j, 0)` is `x` at row `idx[j, 0]` (signed, clamped into `[0, N − 1]`) and column `0`.

  Both are generic in the extents `N` and `M`, and stated for an arbitrary proof of the dimension numbers'
  conditions, so a record with the same literal fields is an instance by `rfl`.
-/
import Idealize.ShloMosaic.PureOps
import Idealize.ShloMosaic.PureOps.Ideal
import Idealize.ShloMosaic.Lib.ValueIdx
noncomputable section
namespace Cert.Lib.Take
open Idealize.ShloMosaic Idealize.ShloMosaic.ValueIdx

variable {α : Type}

/-! ## Operand `[N]`, start indices `[M, 1]`, result `[M]` -/

/-- The dimension numbers of `x[idx]` for an operand `[N]`, start indices `[M, 1]` (the index vector on axis 1) and
    result `[M]`: no offset axes, operand axis 0 collapsed, start index map `[0]`, slice sizes `[1]`. -/
abbrev take1Dims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gather_take1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : (⟨1, ![M]⟩ : Shape).Idx) :
    Host.gather (take1Dims N M wf) x idx j = x (ix1 ⟨min (idx (ix2 (j 0) 0)).toInt.toNat (N - 1), by omega⟩) := by
  unfold Host.gather
  congr 1
  funext a
  obtain rfl : a = 0 := Subsingleton.elim _ _
  refine Fin.ext ?_
  show (take1Dims N M wf).start j idx 0 + (take1Dims N M wf).batchCoord j 0 + (take1Dims N M wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N M wf).startIndexMap from List.mem_singleton.mpr rfl)]
  have hsi : (take1Dims N M wf).siIdx j ⟨List.idxOf (0 : Fin 1) (take1Dims N M wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Operand `[N, 1]`, start indices `[M, 1]`, result `[M, 1]` -/

/-- The dimension numbers of a row gather for a one-column operand `[N, 1]`, start indices `[M, 1]` (the index vector on
    axis 1) and result `[M, 1]`: result axis 1 the offset axis, operand axis 0 collapsed, start index map `[0]`, slice
    sizes `[1, 1]`. -/
abbrev takeCol1Dims (N M : Nat)
    (wf : GatherDims.WF ⟨2, ![N, 1]⟩ ⟨2, ![M, 1]⟩ ⟨2, ![M, 1]⟩ [1] [0] [] [0] [] 1 ![1, 1]) :
    GatherDims ⟨2, ![N, 1]⟩ ⟨2, ![M, 1]⟩ ⟨2, ![M, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(j, 0)`: the operand at row `idx[j, 0]`, read signed and clamped into `[0, N − 1]`, and at its
    only column. -/
theorem gather_takeCol1_apply {N M w : Nat} (hN : 0 < N)
    (wf : GatherDims.WF ⟨2, ![N, 1]⟩ ⟨2, ![M, 1]⟩ ⟨2, ![M, 1]⟩ [1] [0] [] [0] [] 1 ![1, 1])
    (x : (⟨2, ![N, 1]⟩ : Shape).Idx → α) (idx : IVec ⟨2, ![M, 1]⟩ w) (j : (⟨2, ![M, 1]⟩ : Shape).Idx) :
    Host.gather (takeCol1Dims N M wf) x idx j
      = x (ix2 ⟨min (idx (ix2 (j 0) 0)).toInt.toNat (N - 1), by omega⟩ 0) := by
  unfold Host.gather
  congr 1
  funext a
  refine Fin.ext ?_
  match a with
  | ⟨0, _⟩ =>
    show (takeCol1Dims N M wf).start j idx 0 + (takeCol1Dims N M wf).batchCoord j 0
      + (takeCol1Dims N M wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeCol1Dims N M wf).startIndexMap from List.mem_singleton.mpr rfl)]
    have hsi : (takeCol1Dims N M wf).siIdx j ⟨List.idxOf (0 : Fin 2) (takeCol1Dims N M wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- the operand's second axis has extent one: the coordinate read there is below one
    have h : (takeCol1Dims N M wf).start j idx 1 + (takeCol1Dims N M wf).batchCoord j 1
        + (takeCol1Dims N M wf).offCoord j 1 < 1 := GatherDims.lt _ j idx 1
    show (takeCol1Dims N M wf).start j idx 1 + (takeCol1Dims N M wf).batchCoord j 1
      + (takeCol1Dims N M wf).offCoord j 1 = 0
    omega

end Cert.Lib.Take
-- ==== Proof.LibLand.lean ====
/-
  General lemmas: an accumulating StableHLO scatter in its two simplest shapes — where an update lands, and the
  scatter read at an element.

  * operand `[N]`, scatter indices `[M, 1]` (the index vector on axis 1), updates `[M]` (`scat1Dims`): update `j` lands on
    element `i` exactly when the scatter index `idx[j, 0]`, read as a signed integer, is `i` (`scat1_lands`; an index
    outside `[0, N)` lands nowhere: the update is dropped), and the scatter at `i` is the operand's element plus the sum
    of the updates `j` with `idx[j, 0] = i` (`scatterAdd1_apply`).
  * the same for a one-column operand `[N, 1]` and updates `[M, 1]` (`scatCol1Dims`, `scatCol1_lands`), the sum
    re-indexed to the rank-1 index set `[M]` of the updates' rows (`scatterAddCol1_apply`).

  Generic in the extents `N` and `M` and in the float type, and stated for an arbitrary proof of the dimension numbers'
  conditions, so a record with the same literal fields is an instance by `rfl`.
-/
import Idealize.ShloMosaic.PureOps
import Idealize.ShloMosaic.PureOps.Ideal
import Idealize.ShloMosaic.Lib.ValueIdx
import proofs.«119918_j52106543235553_2_alg».proof.Proof.LibScatterWords
noncomputable section
namespace Cert.Lib.Land
open Idealize.ShloMosaic Idealize.ShloMosaic.ValueIdx
open scoped BigOperators

/-! ## Operand `[N]`, scatter indices `[M, 1]`, updates `[M]` -/

/-- The dimension numbers of `x.at[idx].add(upd)` for an operand `[N]`, scatter indices `[M, 1]` (the index vector on
    axis 1) and updates `[M]`: no window axes, operand axis 0 inserted, the scatter index's one component going to operand
    axis 0. -/
abbrev scat1Dims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window's start on the operand's axis for update `j`: the scatter index `idx[j, 0]`, read signed. -/
theorem scat1_start {N M w : Nat} (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (scat1Dims N M wf).start j idx 0 = (idx (ix2 (j 0) 0)).toInt := by
  unfold ScatterDims.start
  rw [dif_pos (show (0 : Fin 1) ∈ (scat1Dims N M wf).scatterDimsToOperandDims from List.mem_singleton.mpr rfl)]
  have hsi : (scat1Dims N M wf).siIdx j ⟨List.idxOf (0 : Fin 1) (scat1Dims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's axis is an inserted one: the window coordinate there is `0`. -/
theorem scat1_window {N M : Nat} (wf : ScatterDims.WF ⟨1, ![N]⟩ ⟨2, ![M, 1]⟩ ⟨1, ![M]⟩ [] [0] [0] 1)
    (j : (⟨1, ![M]⟩ : Shape).Idx) : (scat1Dims N M wf).window j 0 = 0 := by
  unfold ScatterDims.window
  rw [dif_neg]
  simp [ScatterDims.sKept, Shape.kept]

/-- WHERE UPDATE `j` LANDS: on element `i` exactly when its scatter index `idx[j, 0]`, read signed, is `i`. -/
theorem scat1_lands {N M w : Nat} (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (scat1Dims N M wf).resultIdx? j idx = some i ↔ (idx (ix2 (j 0) 0)).toInt = ((i 0).val : Int) := by
  rw [Cert.Lib.Scatter.resultIdx?_eq_some_iff]
  constructor
  · intro h
    have h0 := h 0
    rw [scat1_start, scat1_window] at h0
    simpa using h0
  · intro h a
    obtain rfl : a = 0 := Subsingleton.elim _ _
    rw [scat1_start, scat1_window]
    simpa using h

/-- THE SCATTER READ AT `i`: the operand's element plus the sum of the updates whose scatter index is `i`. -/
theorem scatterAdd1_apply {N M w : Nat} {φ : FTy} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ)
    (i : (⟨1, ![N]⟩ : Shape).Idx) :
    Host.scatterAdd (F := Ideal) (scat1Dims N M wf) x idx upd i
      = x i + ∑ j ∈ (Finset.univ : Finset (⟨1, ![M]⟩ : Shape).Idx).filter
          (fun j => (idx (ix2 (j 0) 0)).toInt = ((i 0).val : Int)), upd j := by
  rw [Cert.Lib.Scatter.scatterAdd_ideal, Cert.Lib.Scatter.hostScatterAdd_eq]
  congr 1
  refine Finset.sum_congr (Finset.filter_congr fun j _ => scat1_lands wf j idx i) fun _ _ => rfl

/-! ## Operand `[N, 1]`, scatter indices `[M, 1]`, updates `[M, 1]` -/

/-- The dimension numbers of a row scatter for a one-column operand `[N, 1]`, scatter indices `[M, 1]` (the index vector
    on axis 1) and updates `[M, 1]`: updates axis 1 the window axis, operand axis 0 inserted, the scatter index's one
    component going to operand axis 0. -/
abbrev scatCol1Dims (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- An index of a one-column array is its row and column `0`. -/
theorem col_eq {M : Nat} (a : (⟨2, ![M, 1]⟩ : Shape).Idx) : ix2 (a 0) (0 : Fin 1) = a := by
  funext b
  match b with
  | ⟨0, _⟩ => rfl
  | ⟨1, _⟩ =>
    refine Fin.ext ?_
    have := idx2_lt1 a
    show 0 = (a 1).val
    omega

/-- The window's start on the operand's row axis for update `(j, 0)`: the scatter index `idx[j, 0]`, read signed. -/
theorem scatCol1_start0 {N M w : Nat} (wf : ScatterDims.WF ⟨2, ![N, 1]⟩ ⟨2, ![M, 1]⟩ ⟨2, ![M, 1]⟩ [1] [0] [0] 1)
    (j : (⟨2, ![M, 1]⟩ : Shape).Idx) (idx : IVec ⟨2, ![M, 1]⟩ w) :
    (scatCol1Dims N M wf).start j idx 0 = (idx (ix2 (j 0) 0)).toInt := by
  unfold ScatterDims.start
  rw [dif_pos (show (0 : Fin 2) ∈ (scatCol1Dims N M wf).scatterDimsToOperandDims from List.mem_singleton.mpr rfl)]
  have hsi : (scatCol1Dims N M wf).siIdx j ⟨List.idxOf (0 : Fin 2) (scatCol1Dims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter index has no component for the operand's column axis: the window starts at `0` there. -/
theorem scatCol1_start1 {N M w : Nat} (wf : ScatterDims.WF ⟨2, ![N, 1]⟩ ⟨2, ![M, 1]⟩ ⟨2, ![M, 1]⟩ [1] [0] [0] 1)
    (j : (⟨2, ![M, 1]⟩ : Shape).Idx) (idx : IVec ⟨2, ![M, 1]⟩ w) :
    (scatCol1Dims N M wf).start j idx 1 = 0 := by
  unfold ScatterDims.start
  rw [dif_neg]
  simp

/-- The operand's row axis is an inserted one: the window coordinate there is `0`. -/
theorem scatCol1_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol1Dims N M wf).window j 0 = 0 := by
  unfold ScatterDims.window
  rw [dif_neg]
  simp [ScatterDims.sKept, Shape.kept]

/-- On the operand's column axis the window coordinate is the update's column, which is `0`. -/
theorem scatCol1_window1 {N M : Nat} (wf : ScatterDims.WF ⟨2, ![N, 1]⟩ ⟨2, ![M, 1]⟩ ⟨2, ![M, 1]⟩ [1] [0] [0] 1)
    (j : (⟨2, ![M, 1]⟩ : Shape).Idx) : (scatCol1Dims N M wf).window j 1 = 0 := by
  have h1 : (1 : Fin 2) ∈ (scatCol1Dims N M wf).sKept := by
    simp [ScatterDims.sKept, Shape.kept]
  have e : (scatCol1Dims N M wf).window j 1 = (j 1).val := by
    unfold ScatterDims.window
    rw [dif_pos h1]
    rfl
  have := idx2_lt1 j
  omega

/-- WHERE UPDATE `(j, 0)` LANDS: on element `(i, 0)` exactly when its scatter index `idx[j, 0]`, read signed, is `i`. -/
theorem scatCol1_lands {N M w : Nat} (wf : ScatterDims.WF ⟨2, ![N, 1]⟩ ⟨2, ![M, 1]⟩ ⟨2, ![M, 1]⟩ [1] [0] [0] 1)
    (j : (⟨2, ![M, 1]⟩ : Shape).Idx) (idx : IVec ⟨2, ![M, 1]⟩ w) (i : (⟨2, ![N, 1]⟩ : Shape).Idx) :
    (scatCol1Dims N M wf).resultIdx? j idx = some i ↔ (idx (ix2 (j 0) 0)).toInt = ((i 0).val : Int) := by
  rw [Cert.Lib.Scatter.resultIdx?_eq_some_iff]
  constructor
  · intro h
    have h0 := h 0
    rw [scatCol1_start0, scatCol1_window0] at h0
    simpa using h0
  · intro h a
    match a with
    | ⟨0, _⟩ =>
      show (scatCol1Dims N M wf).start j idx 0 + (((scatCol1Dims N M wf).window j 0 : Nat) : Int) = ((i 0).val : Int)
      rw [scatCol1_start0, scatCol1_window0]
      simpa using h
    | ⟨1, _⟩ =>
      show (scatCol1Dims N M wf).start j idx 1 + (((scatCol1Dims N M wf).window j 1 : Nat) : Int) = ((i 1).val : Int)
      rw [scatCol1_start1, scatCol1_window1]
      have := idx2_lt1 i
      omega

/-- THE SCATTER READ AT `(i, 0)`: the operand's element plus the sum, over the updates' rows `j` whose scatter index
    `idx[j, 0]` is `i`, of the update `(j, 0)`. -/
theorem scatterAddCol1_apply {N M w : Nat} {φ : FTy}
    (wf : ScatterDims.WF ⟨2, ![N, 1]⟩ ⟨2, ![M, 1]⟩ ⟨2, ![M, 1]⟩ [1] [0] [0] 1)
    (x : FVec Ideal ⟨2, ![N, 1]⟩ φ) (idx : IVec ⟨2, ![M, 1]⟩ w) (upd : FVec Ideal ⟨2, ![M, 1]⟩ φ)
    (i : (⟨2, ![N, 1]⟩ : Shape).Idx) :
    Host.scatterAdd (F := Ideal) (scatCol1Dims N M wf) x idx upd i
      = x i + ∑ j ∈ (Finset.univ : Finset (⟨1, ![M]⟩ : Shape).Idx).filter
          (fun j => (idx (ix2 (j 0) 0)).toInt = ((i 0).val : Int)), upd (ix2 (j 0) 0) := by
  rw [Cert.Lib.Scatter.scatterAdd_ideal, Cert.Lib.Scatter.hostScatterAdd_eq]
  congr 1
  refine Finset.sum_nbij' (fun a => ix1 (a 0)) (fun b => ix2 (b 0) 0) ?_ ?_ ?_ ?_ ?_
  · intro a ha
    rw [Finset.mem_filter] at ha ⊢
    exact ⟨Finset.mem_univ _, (scatCol1_lands wf a idx i).mp ha.2⟩
  · intro b hb
    rw [Finset.mem_filter] at hb ⊢
    exact ⟨Finset.mem_univ _, (scatCol1_lands wf _ idx i).mpr hb.2⟩
  · intro a _
    exact col_eq a
  · intro b _
    exact (eq_ix1 b).symm
  · intro a _
    exact congrArg upd (col_eq a).symm

end Cert.Lib.Land
-- ==== Proof.KValue.lean ====
/-
  The idealized kernel's result, read at an index, is the specification.

  Node `n < 500000` sits at row `n / 128`, lane `n % 128` of the padded 4096 × 128 layout: padding and laying out, then
  reading there, gives back entry `n` (`pad_apply`), and cutting the padding off a layout reads it there
  (`unpad_apply`).  So a pointwise function of padded arrays, cut back, is that function of the arrays' entries at `n`.
  The two gathers read one entry each at a clamped index, the accumulating scatter adds up the updates whose
  destination word is `n`; put together, the result at `(n, 0)` is `Spec.out` there.
-/
import proofs.«119918_j52106543235553_2_alg».proof.Proof.KHost
import proofs.«119918_j52106543235553_2_alg».proof.Proof.Spec
import proofs.«119918_j52106543235553_2_alg».proof.Proof.LibTake
import proofs.«119918_j52106543235553_2_alg».proof.Proof.LibLand
import Idealize.ShloMosaic.PureOps.Ideal.Laws
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Blocks Cert.KernelIdeal.HostSide
open Idealize.ShloMosaic Idealize.ShloMosaic.ValueIdx Cert.Lib.Scatter Cert.Lib.Take Cert.Lib.Land

variable {F : FTy → Type} [FloatOps F]

/-- Where node `n` sits in the 4096 × 128 layout. -/
abbrev cell (n : Fin 500000) : S4096x128.Idx := ix2 (⟨n.val / 128, by omega⟩ : Fin 4096) (⟨n.val % 128, Nat.mod_lt _ (by decide)⟩ : Fin 128)

/-- Cutting the padding off reads the layout at the node's cell. -/
theorem unpad_apply (y : (⟨S4096x128, .f32⟩ : BufTy).Contents (Elt F)) (n : Fin 500000) : unpad y (ix1 n) = y (cell n) := by
  unfold unpad
  refine (extractStridedSlice_apply ![0] _ slices_S524288_S500000_0 (ix1 n) (ix1 (⟨n.val, by omega⟩ : Fin 524288)) (fun a => match a with
    | ⟨0, _⟩ => by show n.val = 0 + n.val; omega)).trans ?_
  exact shapeCast_apply _ _ _ (cell n) (by
    rw [Shape.rowMajor_val_two, Shape.rowMajor_val_one]
    show n.val / 128 * 128 + n.val % 128 = n.val
    omega)

/-- A padded array, laid out, holds entry `n` at node `n`'s cell (whatever the padding value). -/
theorem pad_apply (z : BitVec 32) (x : (⟨S500000, .f32⟩ : BufTy).Contents (Elt F)) (n : Fin 500000) : HostSide.pad z x (cell n) = x (ix1 n) := by
  unfold HostSide.pad
  refine (shapeCast_apply _ _ (cell n) (ix1 (⟨n.val, by omega⟩ : Fin 524288)) (by
    rw [Shape.rowMajor_val_two, Shape.rowMajor_val_one]
    show n.val = n.val / 128 * 128 + n.val % 128
    omega)).trans ?_
  exact concatenate_pair_apply_left (t := S524288) (s₁ := S500000) (s₂ := S24288) (0 : Fin 1) x _ concatenates_S500000_S24288_S524288_d0 _ rfl (ix1 n) (fun b => match b with
    | ⟨0, _⟩ => rfl)

/-! ## Columns, and the edge index's two rows -/

/-- A node vector set as a column reads the vector at the row. -/
theorem colN_apply {α : Type} (y : S500000.Idx → α) (i : S500000x1.Idx) :
    broadcastInDim S500000x1 ![0] bcast_S500000_S500000x1_0 y i = y (ix1 (i 0)) :=
  broadcastInDim_apply _ bcast_S500000_S500000x1_0 y i (ix1 (i 0)) (fun a => match a with
    | ⟨0, _⟩ => by show (i 0).val = if (500000 : Nat) = 1 then 0 else (i 0).val; rw [if_neg (by decide)])

/-- An edge vector set as a column reads the vector at the row. -/
theorem colE_apply {α : Type} (y : S16000000.Idx → α) (i : S16000000x1.Idx) :
    broadcastInDim S16000000x1 ![0] bcast_S16000000_S16000000x1_0 y i = y (ix1 (i 0)) :=
  broadcastInDim_apply _ bcast_S16000000_S16000000x1_0 y i (ix1 (i 0)) (fun a => match a with
    | ⟨0, _⟩ => by show (i 0).val = if (16000000 : Nat) = 1 then 0 else (i 0).val; rw [if_neg (by decide)])

/-- Row 0 of the edge index, as a vector, at edge `e`. -/
theorem srcIdx_apply (x3 : (⟨S2x16000000, .i32⟩ : BufTy).Contents (Elt Ideal)) (e : Fin 16000000) :
    srcIdx (F := Ideal) x3 (ix1 e) = x3 (ix2 (0 : Fin 2) e) := by
  unfold srcIdx
  refine (shapeCast_apply _ _ (ix1 e) (ix2 (0 : Fin 1) e) (by
    rw [Shape.rowMajor_val_two, Shape.rowMajor_val_one]; show 0 * 16000000 + e.val = e.val; omega)).trans ?_
  exact extractStridedSlice_apply ![0, 0] x3 slices_S2x16000000_S1x16000000_0_0 (ix2 (0 : Fin 1) e) (ix2 (0 : Fin 2) e) (fun a => match a with
    | ⟨0, _⟩ => by show 0 = 0 + 0; rfl
    | ⟨1, _⟩ => by show e.val = 0 + e.val; omega)

/-- Row 1 of the edge index, as a vector, at edge `e`. -/
theorem dstIdx_apply (x3 : (⟨S2x16000000, .i32⟩ : BufTy).Contents (Elt Ideal)) (e : Fin 16000000) :
    dstIdx (F := Ideal) x3 (ix1 e) = x3 (ix2 (1 : Fin 2) e) := by
  unfold dstIdx
  refine (shapeCast_apply _ _ (ix1 e) (ix2 (0 : Fin 1) e) (by
    rw [Shape.rowMajor_val_two, Shape.rowMajor_val_one]; show 0 * 16000000 + e.val = e.val; omega)).trans ?_
  exact extractStridedSlice_apply ![1, 0] x3 slices_S2x16000000_S1x16000000_1_0 (ix2 (0 : Fin 1) e) (ix2 (1 : Fin 2) e) (fun a => match a with
    | ⟨0, _⟩ => by show 1 = 1 + 0; rfl
    | ⟨1, _⟩ => by show e.val = 0 + e.val; omega)

/-- A scalar word broadcast over the edges reads the word. -/
theorem constE_apply (k : BitVec 32) (i : S16000000.Idx) :
    broadcastInDim S16000000 ![] bcast_S_S16000000 (constantI S_ 32 k : (⟨S_, .i32⟩ : BufTy).Contents (Elt Ideal)) i = k :=
  (broadcastInDim_apply _ bcast_S_S16000000 (constantI S_ 32 k : (⟨S_, .i32⟩ : BufTy).Contents (Elt Ideal)) i (fun a => a.elim0) (fun a => a.elim0)).trans rfl

/-- A scalar word broadcast over the nodes reads the word. -/
theorem constN_apply (k : BitVec 32) (i : S500000.Idx) :
    broadcastInDim S500000 ![] bcast_S_S500000 (constantI S_ 32 k : (⟨S_, .i32⟩ : BufTy).Contents (Elt Ideal)) i = k :=
  (broadcastInDim_apply _ bcast_S_S500000 (constantI S_ 32 k : (⟨S_, .i32⟩ : BufTy).Contents (Elt Ideal)) i (fun a => a.elim0) (fun a => a.elim0)).trans rfl

/-- The source word of edge `e`, a negative one counted from the end. -/
theorem srcNorm_apply (x3 : (⟨S2x16000000, .i32⟩ : BufTy).Contents (Elt Ideal)) (e : Fin 16000000) :
    srcNorm (F := Ideal) x3 (ix1 e) = normW (x3 (ix2 (0 : Fin 2) e)) 500000#32 := by
  show Scalar.select (IntOp.cmpi .slt (srcIdx (F := Ideal) x3 (ix1 e)) (broadcastInDim S16000000 ![] bcast_S_S16000000 (constantI S_ 32 0#32 : (⟨S_, .i32⟩ : BufTy).Contents (Elt Ideal)) (ix1 e)))
      (IntOp.addi (srcIdx (F := Ideal) x3 (ix1 e)) (broadcastInDim S16000000 ![] bcast_S_S16000000 (constantI S_ 32 500000#32 : (⟨S_, .i32⟩ : BufTy).Contents (Elt Ideal)) (ix1 e)))
      (srcIdx (F := Ideal) x3 (ix1 e)) = _
  rw [srcIdx_apply, constE_apply, constE_apply]
  rfl

/-! ## The per-node scale and the first region's result -/

/-- The program's dimension records are the generic ones at its extents. -/
theorem gatherT_eq : gather_S64_S500000x1_S500000_n_0_n_n_0_1_1
    = take1Dims 64 500000 gather_S64_S500000x1_S500000_n_0_n_n_0_1_1_wf := rfl
theorem gatherE_eq : gather_S500000_S16000000x1_S16000000_n_0_n_n_0_1_1
    = take1Dims 500000 16000000 gather_S500000_S16000000x1_S16000000_n_0_n_n_0_1_1_wf := rfl
theorem scat_eq : scatter_S500000_S16000000x1_S16000000_n_0_0_1
    = scat1Dims 500000 16000000 scatter_S500000_S16000000x1_S16000000_n_0_0_1_wf := rfl

/-- The type word of node `n`, a negative one counted from the end, as the gather's start index reads it. -/
theorem typeWord_apply (x2 : (⟨S500000, .i32⟩ : BufTy).Contents (Elt Ideal)) (n : Fin 500000) :
    broadcastInDim S500000x1 ![0] bcast_S500000_S500000x1_0
      (select (cmpi .slt x2 (broadcastInDim S500000 ![] bcast_S_S500000 (constantI S_ 32 0#32 : (⟨S_, .i32⟩ : BufTy).Contents (Elt Ideal))))
        (addi x2 (broadcastInDim S500000 ![] bcast_S_S500000 (constantI S_ 32 64#32 : (⟨S_, .i32⟩ : BufTy).Contents (Elt Ideal)))) x2) (ix2 n (0 : Fin 1))
      = normW (x2 (ix1 n)) 64#32 := by
  refine (colN_apply _ (ix2 n (0 : Fin 1))).trans ?_
  show Scalar.select (IntOp.cmpi .slt (x2 (ix1 n)) (broadcastInDim S500000 ![] bcast_S_S500000 (constantI S_ 32 0#32 : (⟨S_, .i32⟩ : BufTy).Contents (Elt Ideal)) (ix1 n)))
      (IntOp.addi (x2 (ix1 n)) (broadcastInDim S500000 ![] bcast_S_S500000 (constantI S_ 32 64#32 : (⟨S_, .i32⟩ : BufTy).Contents (Elt Ideal)) (ix1 n))) (x2 (ix1 n)) = _
  rw [constN_apply, constN_apply]
  rfl

/-- The per-node scale is the table's entry at the node's type. -/
theorem scale_apply (x2 : (⟨S500000, .i32⟩ : BufTy).Contents (Elt Ideal)) (x7 : (⟨S64x1, .f32⟩ : BufTy).Contents (Elt Ideal)) (n : Fin 500000) :
    scale (F := Ideal) x2 x7 (ix1 n) = x7 (ix2 (Spec.typeOf x2 n) (0 : Fin 1)) := by
  unfold scale
  rw [gatherT_eq]
  refine (gather_take1_apply (by decide) _ _ _ (ix1 n)).trans ?_
  refine shapeCast_apply x7 shapeCasts_S64x1_S64 _ (ix2 (Spec.typeOf x2 n) (0 : Fin 1)) ?_
  rw [Shape.rowMajor_val_two, Shape.rowMajor_val_one]
  show (Spec.typeOf x2 n).val * 1 + 0 = min (broadcastInDim S500000x1 ![0] bcast_S500000_S500000x1_0
      (select (cmpi .slt x2 (broadcastInDim S500000 ![] bcast_S_S500000 (constantI S_ 32 0#32 : (⟨S_, .i32⟩ : BufTy).Contents (Elt Ideal))))
        (addi x2 (broadcastInDim S500000 ![] bcast_S_S500000 (constantI S_ 32 64#32 : (⟨S_, .i32⟩ : BufTy).Contents (Elt Ideal)))) x2) (ix2 n (0 : Fin 1))).toInt.toNat (64 - 1)
  rw [typeWord_apply, Nat.mul_one, Nat.add_zero]
  rfl

/-- The first region's result, cut back to the nodes, is `pre` of the specification. -/
theorem preOf_apply (x0 : (⟨S500000, .f32⟩ : BufTy).Contents (Elt Ideal)) (x2 : (⟨S500000, .i32⟩ : BufTy).Contents (Elt Ideal)) (x7 : (⟨S64x1, .f32⟩ : BufTy).Contents (Elt Ideal)) (n : Fin 500000) :
    preOf (F := Ideal) x0 x2 x7 (ix1 n) = Spec.preAt x0 x2 x7 n := by
  unfold preOf
  rw [unpad_apply]
  show FloatOps.mulf (FloatOps.maximumf (HostSide.pad 0x00000000#32 x0 (cell n)) (Scalar.ofBits .f32 0x00000000#32)) (HostSide.pad 0x00000000#32 (scale (F := Ideal) x2 x7) (cell n)) = _
  rw [pad_apply, pad_apply, scale_apply]
  rfl

/-! ## The edges: gather, weight, accumulate -/

/-- The gather along the edges reads `pre` at the edge's source node. -/
theorem gatherE_apply (pre : (⟨S500000, .f32⟩ : BufTy).Contents (Elt Ideal)) (x3 : (⟨S2x16000000, .i32⟩ : BufTy).Contents (Elt Ideal)) (j : S16000000.Idx) :
    Host.gather gather_S500000_S16000000x1_S16000000_n_0_n_n_0_1_1 pre
      (broadcastInDim S16000000x1 ![0] bcast_S16000000_S16000000x1_0 (srcNorm (F := Ideal) x3)) j
      = pre (ix1 (Spec.srcNode x3 (j 0))) := by
  rw [gatherE_eq]
  refine (gather_take1_apply (by decide) _ pre _ j).trans ?_
  refine congrArg pre (congrArg (ix1 (n := 500000)) (Fin.ext ?_))
  show min (broadcastInDim S16000000x1 ![0] bcast_S16000000_S16000000x1_0 (srcNorm (F := Ideal) x3) (ix2 (j 0) (0 : Fin 1))).toInt.toNat (500000 - 1)
    = (Spec.srcNode x3 (j 0)).val
  rw [show broadcastInDim S16000000x1 ![0] bcast_S16000000_S16000000x1_0 (srcNorm (F := Ideal) x3) (ix2 (j 0) (0 : Fin 1))
      = normW (x3 (ix2 (0 : Fin 2) (j 0))) 500000#32 from (colE_apply _ _).trans (srcNorm_apply x3 (j 0))]
  rfl

/-- The destination word of edge `e`, as the scatter's start index reads it. -/
theorem dstWord_apply (x3 : (⟨S2x16000000, .i32⟩ : BufTy).Contents (Elt Ideal)) (e : Fin 16000000) :
    broadcastInDim S16000000x1 ![0] bcast_S16000000_S16000000x1_0 (dstIdx (F := Ideal) x3) (ix2 e (0 : Fin 1)) = x3 (ix2 (1 : Fin 2) e) :=
  (colE_apply _ _).trans (dstIdx_apply x3 e)

/-- The message at node `n` is the specification's. -/
theorem nodeMsg_apply (x0 : (⟨S500000, .f32⟩ : BufTy).Contents (Elt Ideal)) (x2 : (⟨S500000, .i32⟩ : BufTy).Contents (Elt Ideal)) (x3 : (⟨S2x16000000, .i32⟩ : BufTy).Contents (Elt Ideal)) (x4 : (⟨S16000000, .f32⟩ : BufTy).Contents (Elt Ideal))
    (x7 : (⟨S64x1, .f32⟩ : BufTy).Contents (Elt Ideal)) (n : Fin 500000) :
    nodeMsg (F := Ideal) (preOf (F := Ideal) x0 x2 x7) x3 x4 (ix1 n) = Spec.msgAt x0 x2 x3 x4 x7 n := by
  unfold nodeMsg
  rw [scat_eq]
  refine (scatterAdd1_apply _ _ _ _ (ix1 n)).trans ?_
  unfold Spec.msgAt
  refine congrArg₂ (· + ·) ?_ ?_
  · exact (broadcastInDim_apply _ bcast_S_S500000 _ (ix1 n) (fun a => a.elim0) (fun a => a.elim0)).trans rfl
  · refine Finset.sum_congr (Finset.filter_congr fun j _ => ?_) (fun j _ => ?_)
    · rw [dstWord_apply x3 (j 0)]
    · show x4 j * Host.gather gather_S500000_S16000000x1_S16000000_n_0_n_n_0_1_1 (preOf (F := Ideal) x0 x2 x7)
          (broadcastInDim S16000000x1 ![0] bcast_S16000000_S16000000x1_0 (srcNorm (F := Ideal) x3)) j = _
      rw [gatherE_apply, preOf_apply]

/-! ## The result -/

/-- The idealized kernel's result is the specification, index by index. -/
theorem kernelOut_eq (x0 x1 : (⟨S500000, .f32⟩ : BufTy).Contents (Elt Ideal)) (x2 : (⟨S500000, .i32⟩ : BufTy).Contents (Elt Ideal)) (x3 : (⟨S2x16000000, .i32⟩ : BufTy).Contents (Elt Ideal)) (x4 : (⟨S16000000, .f32⟩ : BufTy).Contents (Elt Ideal))
    (x5 x6 : (⟨S500000, .f32⟩ : BufTy).Contents (Elt Ideal)) (x7 : (⟨S64x1, .f32⟩ : BufTy).Contents (Elt Ideal)) :
    kernelOut (F := Ideal) x0 x1 x2 x3 x4 x5 x6 x7 = Spec.out x0 x1 x2 x3 x4 x5 x6 x7 := by
  funext i
  unfold kernelOut
  refine (colN_apply _ i).trans ?_
  refine (unpad_apply _ (i 0)).trans ?_
  show Ideal.div ((((Spec.z0 - HostSide.pad 0x00000000#32 x0 (cell (i 0))) + HostSide.pad 0x00000000#32 (nodeMsg (F := Ideal) (preOf (F := Ideal) x0 x2 x7) x3 x4) (cell (i 0)))
      + HostSide.pad 0x00000000#32 x1 (cell (i 0))) + HostSide.pad 0x00000000#32 x5 (cell (i 0))) (HostSide.pad 0x3F800000#32 x6 (cell (i 0))) = _
  rw [pad_apply _ x0 (i 0), pad_apply _ x1 (i 0), pad_apply _ x5 (i 0), pad_apply _ x6 (i 0), pad_apply _ _ (i 0), nodeMsg_apply x0 x2 x3 x4 x7 (i 0)]
  rfl

end Cert.KernelIdeal.KValue

end
-- ==== Proof.RValue.lean ====
/-
  The reference program's result, read at an index over the extended reals, is the specification's node update.

  Per edge `e`: the source-node column and the type column are the index words normalised from the end of their axis; the
  three gathers read the node value, the node type and the type's scale at those words clamped into their axes; the
  edge's update is `w(e) · (max(v(src e), 0) · scale(type(src e)))` by associativity of multiplication.  Per node `n`: the
  accumulating scatter adds to the exact zero the updates of the edges whose destination word is `n`, and the last five
  operations are `((((−v(n)) + msg(n)) + stim(n)) + rest(n)) / tau(n)`, with `−x = 0 − x`.
-/
import proofs.«119918_j52106543235553_2_alg».proof.Proof.Gen.ReferenceIdeal.Read
import proofs.«119918_j52106543235553_2_alg».proof.Proof.Spec
import proofs.«119918_j52106543235553_2_alg».proof.Proof.LibTake
import proofs.«119918_j52106543235553_2_alg».proof.Proof.LibLand
import Idealize.ShloMosaic.PureOps.Ideal.Laws
import Idealize.ShloMosaic.Lib.ValueIdx
noncomputable section
namespace Cert.ReferenceIdeal.RefValue
open Cert.ReferenceIdeal Cert.ReferenceIdeal.Gen Cert.ReferenceIdeal.Read Idealize.ShloMosaic Idealize.ShloMosaic.ValueIdx
  Cert.Lib.Scatter
open scoped BigOperators

variable (x0 x1 : (⟨S500000, .f32⟩ : BufTy).Contents (Elt Ideal)) (x2 : (⟨S500000, .i32⟩ : BufTy).Contents (Elt Ideal))
  (x3 : (⟨S2x16000000, .i32⟩ : BufTy).Contents (Elt Ideal)) (x4 : (⟨S16000000, .f32⟩ : BufTy).Contents (Elt Ideal))
  (x5 x6 : (⟨S500000, .f32⟩ : BufTy).Contents (Elt Ideal)) (x7 : (⟨S64x1, .f32⟩ : BufTy).Contents (Elt Ideal))

/-! ## The source-node column -/

/-- Row 0 of the edge array, flattened, at edge `e`. -/
theorem v2_at (e : Fin 16000000) : val_main_v2 (F := Ideal) x3 (ix1 e) = x3 (ix2 (0 : Fin 2) e) := by
  rw [val_main_v2_apply, val_main_v1_apply]
  congr 1
  funext a
  match a with
  | ⟨0, _⟩ => rfl
  | ⟨1, _⟩ => exact Fin.ext (Nat.mod_eq_of_lt e.isLt)

/-- The source word of edge `e`, counted from the end of the node axis when negative. -/
theorem v10_at (e : Fin 16000000) :
    val_main_v10 (F := Ideal) x3 (ix1 e) = normW (x3 (ix2 (0 : Fin 2) e)) 500000#32 := by
  rw [val_main_v10_apply, val_main_v7_apply, val_main_v9_apply, val_main_v6_apply, val_main_c_apply,
    val_main_v8_apply, val_main_c_0_apply, v2_at]
  rfl

/-- The index of a column's entry `(e, 0)` in the flat array it was broadcast from. -/
theorem idx11 (e : Fin 16000000) : idx_main_v11 (ix2 e (0 : Fin 1)) = ix1 e := by
  funext a; match a with | ⟨0, _⟩ => rfl

theorem v11_at (e : Fin 16000000) :
    val_main_v11 (F := Ideal) x3 (ix2 e (0 : Fin 1)) = normW (x3 (ix2 (0 : Fin 2) e)) 500000#32 := by
  rw [val_main_v11_apply, idx11, v10_at]

/-- The first gather reads the node value at the edge's source node. -/
theorem v12_at (e : Fin 16000000) :
    val_main_v12 (F := Ideal) x0 x3 (ix2 e (0 : Fin 1)) = x0 (ix1 (Cert.Spec.srcNode x3 e)) := by
  have h := Cert.Lib.Take.gather_takeCol1_apply (N := 500000) (M := 16000000) (by decide)
    gather_S500000x1_S16000000x1_S16000000x1_1_0_n_n_0_1_11_wf (val_main_v0 (F := Ideal) x0)
    (val_main_v11 (F := Ideal) x3) (ix2 e (0 : Fin 1))
  have h' : val_main_v12 (F := Ideal) x0 x3 (ix2 e (0 : Fin 1))
      = val_main_v0 (F := Ideal) x0
          (ix2 ⟨min (val_main_v11 (F := Ideal) x3 (ix2 e (0 : Fin 1))).toInt.toNat (500000 - 1), by omega⟩ (0 : Fin 1)) := h
  rw [h', val_main_v0_apply]
  congr 1
  funext a
  match a with
  | ⟨0, _⟩ =>
    refine Fin.ext ?_
    show min (val_main_v11 (F := Ideal) x3 (ix2 e (0 : Fin 1))).toInt.toNat (500000 - 1)
      = min (normW (x3 (ix2 (0 : Fin 2) e)) 500000#32).toInt.toNat (500000 - 1)
    rw [v11_at]

/-- The same source word, as the second gather's start index. -/
theorem v19_at (e : Fin 16000000) :
    val_main_v19 (F := Ideal) x3 (ix1 e) = normW (x3 (ix2 (0 : Fin 2) e)) 500000#32 := by
  rw [val_main_v19_apply, val_main_v16_apply, val_main_v18_apply, val_main_v15_apply, val_main_c_1_apply,
    val_main_v17_apply, val_main_c_2_apply, v2_at]
  rfl

theorem idx20 (e : Fin 16000000) : idx_main_v20 (ix2 e (0 : Fin 1)) = ix1 e := by
  funext a; match a with | ⟨0, _⟩ => rfl

theorem v20_at (e : Fin 16000000) :
    val_main_v20 (F := Ideal) x3 (ix2 e (0 : Fin 1)) = normW (x3 (ix2 (0 : Fin 2) e)) 500000#32 := by
  rw [val_main_v20_apply, idx20, v19_at]

/-! ## The type column -/

/-- The second gather reads the type word of the edge's source node. -/
theorem v21_at (e : Fin 16000000) :
    val_main_v21 (F := Ideal) x2 x3 (ix1 e) = x2 (ix1 (Cert.Spec.srcNode x3 e)) := by
  have h := Cert.Lib.Take.gather_take1_apply (N := 500000) (M := 16000000) (by decide)
    gather_S500000_S16000000x1_S16000000_n_0_n_n_0_1_1_wf x2 (val_main_v20 (F := Ideal) x3) (ix1 e)
  have h' : val_main_v21 (F := Ideal) x2 x3 (ix1 e)
      = x2 (ix1 ⟨min (val_main_v20 (F := Ideal) x3 (ix2 e (0 : Fin 1))).toInt.toNat (500000 - 1), by omega⟩) := h
  rw [h']
  congr 1
  funext a
  match a with
  | ⟨0, _⟩ =>
    refine Fin.ext ?_
    show min (val_main_v20 (F := Ideal) x3 (ix2 e (0 : Fin 1))).toInt.toNat (500000 - 1)
      = min (normW (x3 (ix2 (0 : Fin 2) e)) 500000#32).toInt.toNat (500000 - 1)
    rw [v20_at]

/-- The type word of the edge's source node, counted from the end of the type axis when negative. -/
theorem v26_at (e : Fin 16000000) :
    val_main_v26 (F := Ideal) x2 x3 (ix1 e) = normW (x2 (ix1 (Cert.Spec.srcNode x3 e))) 64#32 := by
  rw [val_main_v26_apply, val_main_v23_apply, val_main_v25_apply, val_main_v22_apply, val_main_c_3_apply,
    val_main_v24_apply, val_main_c_4_apply, v21_at]
  rfl

theorem idx27 (e : Fin 16000000) : idx_main_v27 (ix2 e (0 : Fin 1)) = ix1 e := by
  funext a; match a with | ⟨0, _⟩ => rfl

theorem v27_at (e : Fin 16000000) :
    val_main_v27 (F := Ideal) x2 x3 (ix2 e (0 : Fin 1)) = normW (x2 (ix1 (Cert.Spec.srcNode x3 e))) 64#32 := by
  rw [val_main_v27_apply, idx27, v26_at]

/-- The third gather reads the scale of the source node's type. -/
theorem v28_at (e : Fin 16000000) :
    val_main_v28 (F := Ideal) x2 x3 x7 (ix2 e (0 : Fin 1))
      = x7 (ix2 (Cert.Spec.typeOf x2 (Cert.Spec.srcNode x3 e)) (0 : Fin 1)) := by
  have h := Cert.Lib.Take.gather_takeCol1_apply (N := 64) (M := 16000000) (by decide)
    gather_S64x1_S16000000x1_S16000000x1_1_0_n_n_0_1_11_wf x7 (val_main_v27 (F := Ideal) x2 x3) (ix2 e (0 : Fin 1))
  have h' : val_main_v28 (F := Ideal) x2 x3 x7 (ix2 e (0 : Fin 1))
      = x7 (ix2 ⟨min (val_main_v27 (F := Ideal) x2 x3 (ix2 e (0 : Fin 1))).toInt.toNat (64 - 1), by omega⟩ (0 : Fin 1)) := h
  rw [h']
  congr 1
  funext a
  match a with
  | ⟨0, _⟩ =>
    refine Fin.ext ?_
    show min (val_main_v27 (F := Ideal) x2 x3 (ix2 e (0 : Fin 1))).toInt.toNat (64 - 1)
      = min (normW (x2 (ix1 (Cert.Spec.srcNode x3 e))) 64#32).toInt.toNat (64 - 1)
    rw [v27_at]
  | ⟨1, _⟩ => rfl

/-! ## The edge's update -/

theorem idx5 (e : Fin 16000000) : idx_main_v5 (ix2 e (0 : Fin 1)) = ix1 e := by
  funext a; match a with | ⟨0, _⟩ => rfl

/-- The update of edge `e`: its weight times `max(v, 0) · scale` of its source node. -/
theorem v29_at (e : Fin 16000000) :
    val_main_v29 (F := Ideal) x0 x2 x3 x4 x7 (ix2 e (0 : Fin 1))
      = x4 (ix1 e) * Cert.Spec.preAt x0 x2 x7 (Cert.Spec.srcNode x3 e) := by
  rw [val_main_v29_apply, val_main_v14_apply, val_main_v5_apply, idx5, val_main_v13_apply, v12_at,
    val_main_call0_v0_apply, val_main_call0_cst_apply, v28_at]
  exact mul_assoc _ _ _

/-! ## The destination column -/

/-- Row 1 of the edge array, flattened, at edge `e`. -/
theorem v4_at (e : Fin 16000000) : val_main_v4 (F := Ideal) x3 (ix1 e) = x3 (ix2 (1 : Fin 2) e) := by
  rw [val_main_v4_apply, val_main_v3_apply]
  congr 1
  funext a
  match a with
  | ⟨0, _⟩ => rfl
  | ⟨1, _⟩ => exact Fin.ext (Nat.mod_eq_of_lt e.isLt)

theorem idx31 (e : Fin 16000000) : idx_main_v31 (ix2 e (0 : Fin 1)) = ix1 e := by
  funext a; match a with | ⟨0, _⟩ => rfl

theorem v31_at (e : Fin 16000000) :
    val_main_v31 (F := Ideal) x3 (ix2 e (0 : Fin 1)) = x3 (ix2 (1 : Fin 2) e) := by
  rw [val_main_v31_apply, idx31, v4_at]

/-! ## The message and the node update -/

/-- The accumulating scatter at node `n`: the exact zero plus the updates of the edges whose destination word is `n`. -/
theorem v32_at (i : S500000x1.Idx) :
    val_main_v32 (F := Ideal) x0 x2 x3 x4 x7 i = Cert.Spec.msgAt x0 x2 x3 x4 x7 (i 0) := by
  have e32 : val_main_v32 (F := Ideal) x0 x2 x3 x4 x7 i
      = Host.scatterAdd (F := Ideal)
          (Cert.Lib.Land.scatCol1Dims 500000 16000000 scatter_S500000x1_S16000000x1_S16000000x1_1_0_0_1_wf)
          (val_main_v30 (F := Ideal)) (val_main_v31 (F := Ideal) x3) (val_main_v29 (F := Ideal) x0 x2 x3 x4 x7) i := rfl
  rw [e32, Cert.Lib.Land.scatterAddCol1_apply, val_main_v30_apply, val_main_cst_apply]
  unfold Cert.Spec.msgAt
  refine congrArg (fun s => Cert.Spec.z0 + s) ?_
  refine Finset.sum_congr (Finset.filter_congr fun j _ => ?_) fun j _ => ?_
  · have e := v31_at x3 (j 0)
    constructor
    · intro hh; rw [← e]; exact hh
    · intro hh; rw [e]; exact hh
  · refine (v29_at x0 x2 x3 x4 x7 (j 0)).trans ?_
    exact congrArg (fun t => x4 t * Cert.Spec.preAt x0 x2 x7 (Cert.Spec.srcNode x3 (j 0))) (eq_ix1 j).symm

theorem idx0 (i : S500000x1.Idx) : idx_main_v0 i = ix1 (i 0) := by
  funext a; match a with | ⟨0, _⟩ => rfl
theorem idx35 (i : S500000x1.Idx) : idx_main_v35 i = ix1 (i 0) := by
  funext a; match a with | ⟨0, _⟩ => rfl
theorem idx37 (i : S500000x1.Idx) : idx_main_v37 i = ix1 (i 0) := by
  funext a; match a with | ⟨0, _⟩ => rfl
theorem idx39 (i : S500000x1.Idx) : idx_main_v39 i = ix1 (i 0) := by
  funext a; match a with | ⟨0, _⟩ => rfl

/-- THE REFERENCE'S RESULT IS THE SPECIFICATION: at every node, `((((−v) + msg) + stim) + rest) / tau`. -/
theorem ref_eq_spec :
    val_main_v40 (F := Ideal) x0 x1 x2 x3 x4 x5 x6 x7 = Cert.Spec.out x0 x1 x2 x3 x4 x5 x6 x7 := by
  funext i
  rw [val_main_v40_apply, val_main_v38_apply, val_main_v36_apply, val_main_v34_apply, val_main_v33_apply,
    val_main_v0_apply, idx0, v32_at, val_main_v35_apply, idx35, val_main_v37_apply, idx37, val_main_v39_apply, idx39]
  simp only [Ideal.hostDivf_def, Ideal.addf_def, Ideal.hostNegf_def, Ideal.negf_def]
  unfold Cert.Spec.out
  rw [Cert.Spec.z0_sub]
  generalize Cert.Spec.msgAt x0 x2 x3 x4 x7 (i 0) = m
  rfl

end Cert.ReferenceIdeal.RefValue
-- ==== Proof.lean ====
/-
  A message-passing node update: for 500000 nodes and 16000000 edges,

    out(n) = ((−v(n) + Σ { w(e) · relu(v(src e)) · scale(type(src e)) : dst e = n }) + stim(n) + rest(n)) / tau(n).

  The reference computes the three-factor product per edge, `(w · relu(v[src])) · scale[type[src]]`, and accumulates it
  at the destinations.  The kernel first computes `pre(n) = relu(v(n)) · scale(type(n))` per NODE in a pipelined region
  (eight blocks of 512 × 128 over the padded node arrays), gathers `pre` along the edges' sources, multiplies by the
  weights, accumulates at the destinations, and finishes with a second pipelined region for the node update, written
  `0 − v` where the reference negates.  Over the extended reals, with every float operation exact, the two are the same
  function of the eight input arrays: the product is re-associated, `w · (r · s) = (w · r) · s`, and `0 − x = −x` — two
  laws that hold for all extended reals, so the finiteness of the inputs is never used.  Index words are read alike on
  both sides: a negative index counted from the end of its axis, a gather's index clamped into the axis, a scatter's
  update dropped when its destination is outside.

  The kernel's run (KRun) ends with the result buffer at the fold of the five segments' contents; the regions' closed
  forms (KRegion0, KRegion1) and the host stretches read back (KHost) make that fold one term of the arguments, which read
  at an index is the specification (KValue, Spec).  The reference's run and its read-at-an-index lemmas are generated;
  RValue reads its three gathers and its scatter and arrives at the same specification.  The three frames are the
  generated ones; the idealization rewrote no operation, so its ledger is empty.
-/
import proofs.«119918_j52106543235553_2_alg».proof.Defs
import proofs.«119918_j52106543235553_2_alg».proof.Proof.Gen.Kernel
import proofs.«119918_j52106543235553_2_alg».proof.Proof.Gen.Kernel.Skeleton
import proofs.«119918_j52106543235553_2_alg».proof.Proof.Gen.Kernel.Launch
import proofs.«119918_j52106543235553_2_alg».proof.Proof.Gen.Kernel.Points
import proofs.«119918_j52106543235553_2_alg».proof.Proof.Gen.Kernel.Frame
import proofs.«119918_j52106543235553_2_alg».proof.Proof.Gen.KernelIdeal
import proofs.«119918_j52106543235553_2_alg».proof.Proof.Gen.KernelIdeal.Skeleton
import proofs.«119918_j52106543235553_2_alg».proof.Proof.Gen.KernelIdeal.Launch
import proofs.«119918_j52106543235553_2_alg».proof.Proof.Gen.KernelIdeal.Points
import proofs.«119918_j52106543235553_2_alg».proof.Proof.Gen.KernelIdeal.Frame
import proofs.«119918_j52106543235553_2_alg».proof.Proof.Gen.ReferenceIdeal
import proofs.«119918_j52106543235553_2_alg».proof.Proof.Gen.Pre_finite_inputs
import proofs.«119918_j52106543235553_2_alg».proof.Proof.Gen.ReferenceIdeal.Run
import proofs.«119918_j52106543235553_2_alg».proof.Proof.Gen.ReferenceIdeal.Read
import proofs.«119918_j52106543235553_2_alg».proof.Proof.KRun
import proofs.«119918_j52106543235553_2_alg».proof.Proof.KValue
import proofs.«119918_j52106543235553_2_alg».proof.Proof.RValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the specification of the arguments in
    their result buffers. -/
theorem algebraic : Cert.algebraic_KernelIdeal_ReferenceIdeal := by
  intro m ρ m' ρ' _ hagree
  refine ⟨fun c => Cert.KernelIdeal.HostSide.kernelOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2.1, (hagree c).2.2.2.2.2.2.2,
      Cert.ReferenceIdeal.RefValue.ref_eq_spec]
    exact (Cert.KernelIdeal.KValue.kernelOut_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
